-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v112) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S8192 : Shape := ⟨1, ![8192]⟩
abbrev S8x1024x4096 : Shape := ⟨3, ![8, 1024, 4096]⟩
abbrev S8x2048x1024 : Shape := ⟨3, ![8, 2048, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8x1024x4096 : S_.BroadcastsInDim S8x1024x4096 (![] : Fin 0 → Fin S8x1024x4096.rank)
  reducesTo_S8x1024x4096_S_d0_1_2 : S8x1024x4096.ReducesTo [0, 1, 2] S_
  bcast_S_S8x2048x1024 : S_.BroadcastsInDim S8x2048x1024 (![] : Fin 0 → Fin S8x2048x1024.rank)
  reducesTo_S8x2048x1024_S_d0_1_2 : S8x2048x1024.ReducesTo [0, 1, 2] S_

variable [Facts]

def fn {F : FTy → Type} [FloatOps F] (main_arg0 : FVec F S8192x1024 .f32) (main_arg1 : IVec S8192 32) (main_arg2 : FVec F S8x1024x4096 .f32) (main_arg3 : FVec F S8x2048x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8x1024x4096 .f32 := Host.absf main_arg2
  let main_cst_0 : FVec F S_ .f32 := constant S_ .f32 0x7F800000#32
  let main_v5 : FVec F S8x1024x4096 .f32 := broadcastInDim S8x1024x4096 ![] bcast_S_S8x1024x4096 main_cst_0
  let main_v6 : IVec S8x1024x4096 1 := cmpf .olt main_v4 main_v5
  let main_c_1 : IVec S_ 1 := constantI S_ 1 1#1
  let main_v7 : IVec S_ 1 := (fun x v => Host.reduce IntOp.andi x v reducesTo_S8x1024x4096_S_d0_1_2 h_S_) main_v6 main_c_1
  let main_v8 : IVec S_ 1 := andi main_v3 main_v7
  let main_v9 : FVec F S8x2048x1024 .f32 := Host.absf main_arg3
  let main_cst_2 : FVec F S_ .f32 := constant S_ .f32 0x7F800000#32
  let main_v10 : FVec F S8x2048x1024 .f32 := broadcastInDim S8x2048x1024 ![] bcast_S_S8x2048x1024 main_cst_2
  let main_v11 : IVec S8x2048x1024 1 := cmpf .olt main_v9 main_v10
  let main_c_3 : IVec S_ 1 := constantI S_ 1 1#1
  let main_v12 : IVec S_ 1 := (fun x v => Host.reduce IntOp.andi x v reducesTo_S8x2048x1024_S_d0_1_2 h_S_) main_v11 main_c_3
  let main_v13 : IVec S_ 1 := andi main_v8 main_v12
  main_v13
-- ==== Kernel.lean ====
abbrev S8192x1024 : Shape := ⟨2, ![8192, 1024]⟩
abbrev S8192 : Shape := ⟨1, ![8192]⟩
abbrev S8x1024x4096 : Shape := ⟨3, ![8, 1024, 4096]⟩
abbrev S8x2048x1024 : Shape := ⟨3, ![8, 2048, 1024]⟩
abbrev S8192x1 : Shape := ⟨2, ![8192, 1]⟩
abbrev S256x1024 : Shape := ⟨2, ![256, 1024]⟩
abbrev S256x1 : Shape := ⟨2, ![256, 1]⟩
abbrev S1x1024x4096 : Shape := ⟨3, ![1, 1024, 4096]⟩
abbrev S1x2048x1024 : Shape := ⟨3, ![1, 2048, 1024]⟩
abbrev S1024x4096 : Shape := ⟨2, ![1024, 4096]⟩
abbrev S256x4096 : Shape := ⟨2, ![256, 4096]⟩
abbrev S256x2048 : Shape := ⟨2, ![256, 2048]⟩
abbrev S2048x1024 : Shape := ⟨2, ![2048, 1024]⟩

abbrev nBuf : Space → Nat
  | .hbm => 9
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S8192, .i32⟩
  | .hbm, ⟨2, _⟩ => ⟨S8x1024x4096, .f32⟩
  | .hbm, ⟨3, _⟩ => ⟨S8x2048x1024, .f32⟩
  | .hbm, ⟨4, _⟩ => ⟨S8192x1024, .bf16⟩
  | .hbm, ⟨5, _⟩ => ⟨S8x1024x4096, .bf16⟩
  | .hbm, ⟨6, _⟩ => ⟨S8x2048x1024, .bf16⟩
  | .hbm, ⟨7, _⟩ => ⟨S8192x1, .i32⟩
  | .hbm, ⟨8, _⟩ => ⟨S8192x1024, .f32⟩
  | .local _ .vmem, ⟨0, _⟩ => ⟨S256x1024, .bf16⟩
  | .local _ .vmem, ⟨1, _⟩ => ⟨S256x1024, .bf16⟩
  | .local _ .vmem, ⟨2, _⟩ => ⟨S256x1, .i32⟩
  | .local _ .vmem, ⟨3, _⟩ => ⟨S256x1, .i32⟩
  | .local _ .vmem, ⟨4, _⟩ => ⟨S1x1024x4096, .bf16⟩
  | .local _ .vmem, ⟨5, _⟩ => ⟨S1x1024x4096, .bf16⟩
  | .local _ .vmem, ⟨6, _⟩ => ⟨S1x2048x1024, .bf16⟩
  | .local _ .vmem, ⟨7, _⟩ => ⟨S1x2048x1024, .bf16⟩
  | .local _ .vmem, ⟨8, _⟩ => ⟨S256x1024, .f32⟩
  | .local _ .vmem, ⟨9, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![32, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  bitsLt_bf16_f32 : FTy.bits .bf16 < FTy.bits .f32
  shapeCasts_S8192_S8192x1 : S8192.ShapeCasts S8192x1
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1x1024x4096_S1x1024x4096_0_0_0 : ∀ a, (![0, 0, 0] : Fin 3 → Nat) a + S1x1024x4096.size a ≤ S1x1024x4096.size a
  h_S1x1024x4096 : 0 < S1x1024x4096.numel
  shapeCasts_S1x1024x4096_S1024x4096 : S1x1024x4096.ShapeCasts S1024x4096
  slices_S256x4096_o0_0_S256x2048 : S256x4096.Slices ![0, 0] S256x2048
  slices_S256x4096_o0_2048_S256x2048 : S256x4096.Slices ![0, 2048] S256x2048
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  inb_S256x1_S256x1_0_0 : ∀ a, (![0, 0] : Fin 2 → Nat) a + S256x1.size a ≤ S256x1.size a
  h_S256x1 : 0 < S256x1.numel
  shapeCasts_S256x1_S256x1 : S256x1.ShapeCasts S256x1
  natLt_1_32 : 1 < 32
  broadcasts_S256x1_S256x1024 : S256x1.Broadcasts S256x1024
  dot_S256x1024_S1024x4096_S256x4096_1_0_0_1_n_n_wf : DotDims.WF S256x1024 S1024x4096 S256x4096 [1] [0] [0] [1] [] []
  dot_S256x2048_S2048x1024_S256x1024_1_0_0_1_n_n_wf : DotDims.WF S256x2048 S2048x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S8192x1024.size a
  hwx0_0 : ∀ i : grid0.Coords, EltTy.bits .bf16 = 32 ∨ (Rect.block (s := S8192x1024) S256x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1.size a ≤ S8192x1.size a
  hwx0_1 : ∀ i : grid0.Coords, EltTy.bits .i32 = 32 ∨ (Rect.block (s := S8192x1) S256x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x4096.size a ≤ S8x1024x4096.size a
  hwx0_2 : ∀ i : grid0.Coords, EltTy.bits .bf16 = 32 ∨ (Rect.block (s := S8x1024x4096) S1x1024x4096.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x1024.size a ≤ S8x2048x1024.size a
  hwx0_3 : ∀ i : grid0.Coords, EltTy.bits .bf16 = 32 ∨ (Rect.block (s := S8x2048x1024) S1x2048x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1024.size a ≤ S8192x1024.size a
  hwx0_4 : ∀ i : grid0.Coords, EltTy.bits .f32 = 32 ∨ (Rect.block (s := S8192x1024) S256x1024.size (cc0_transform_4 i) (hinb0_4 i)).WholeWords (EltTy.packing .f32)

variable [Facts₀]

def dot_S256x1024_S1024x4096_S256x4096_1_0_0_1_n_n : DotDims S256x1024 S1024x4096 S256x4096 where
  lhsContracting := [1]
  rhsContracting := [0]
  lhsNonContracting := [0]
  rhsNonContracting := [1]
  lhsBatch := []
  rhsBatch := []
  wf := dot_S256x1024_S1024x4096_S256x4096_1_0_0_1_n_n_wf
def dot_S256x2048_S2048x1024_S256x1024_1_0_0_1_n_n : DotDims S256x2048 S2048x1024 S256x1024 where
  lhsContracting := [1]
  rhsContracting := [0]
  lhsNonContracting := [0]
  rhsNonContracting := [1]
  lhsBatch := []
  rhsBatch := []
  wf := dot_S256x2048_S2048x1024_S256x1024_1_0_0_1_n_n_wf

abbrev win0_0 : Pipeline.Window sig grid0 :=
  Pipeline.Window.ofSpec (Memref.whole main_v0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S256x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1024x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x2048x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S256x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S8192 : Shape := ⟨1, ![8192]⟩
abbrev S8x1024x4096 : Shape := ⟨3, ![8, 1024, 4096]⟩
abbrev S8x2048x1024 : Shape := ⟨3, ![8, 2048, 1024]⟩
abbrev S_ : Shape := ⟨0, ![]⟩
abbrev S1x1024x4096 : Shape := ⟨3, ![1, 1024, 4096]⟩
abbrev S1024x4096 : Shape := ⟨2, ![1024, 4096]⟩
abbrev S8192x4096 : Shape := ⟨2, ![8192, 4096]⟩
abbrev S8192x2048 : Shape := ⟨2, ![8192, 2048]⟩
abbrev S1x2048x1024 : Shape := ⟨3, ![1, 2048, 1024]⟩
abbrev S2048x1024 : Shape := ⟨2, ![2048, 1024]⟩
abbrev S8192x1 : Shape := ⟨2, ![8192, 1]⟩

abbrev nBuf : Space → Nat
  | .hbm => 198
  | .vmem => 0
  | .smem => 0
  | _ => 0

abbrev hbmTy0_0 (i : Nat) : BufTy := match i % 128 with
  | 0 => ⟨S8192x1024, .f32⟩
  | 1 => ⟨S8192, .i32⟩
  | 2 => ⟨S8x1024x4096, .f32⟩
  | 3 => ⟨S8x2048x1024, .f32⟩
  | 4 => ⟨S_, .f32⟩
  | 5 => ⟨S8192x1024, .f32⟩
  | 6 => ⟨S1x1024x4096, .f32⟩
  | 7 => ⟨S1024x4096, .f32⟩
  | 8 => ⟨S8192x4096, .f32⟩
  | 9 => ⟨S8192x2048, .f32⟩
  | 10 => ⟨S8192x2048, .f32⟩
  | 11 => ⟨S8192x2048, .f32⟩
  | 12 => ⟨S8192x2048, .f32⟩
  | 13 => ⟨S_, .f32⟩
  | 14 => ⟨S8192x2048, .f32⟩
  | 15 => ⟨S8192x2048, .f32⟩
  | 16 => ⟨S_, .f32⟩
  | 17 => ⟨S8192x2048, .f32⟩
  | 18 => ⟨S8192x2048, .f32⟩
  | 19 => ⟨S8192x2048, .f32⟩
  | 20 => ⟨S8192x2048, .f32⟩
  | 21 => ⟨S1x2048x1024, .f32⟩
  | 22 => ⟨S2048x1024, .f32⟩
  | 23 => ⟨S8192x1024, .f32⟩
  | 24 => ⟨S_, .i32⟩
  | 25 => ⟨S8192, .i32⟩
  | 26 => ⟨S8192, .i1⟩
  | 27 => ⟨S8192x1, .i1⟩
  | 28 => ⟨S8192x1024, .i1⟩
  | 29 => ⟨S8192x1024, .f32⟩
  | 30 => ⟨S1x1024x4096, .f32⟩
  | 31 => ⟨S1024x4096, .f32⟩
  | 32 => ⟨S8192x4096, .f32⟩
  | 33 => ⟨S8192x2048, .f32⟩
  | 34 => ⟨S8192x2048, .f32⟩
  | 35 => ⟨S8192x2048, .f32⟩
  | 36 => ⟨S8192x2048, .f32⟩
  | 37 => ⟨S_, .f32⟩
  | 38 => ⟨S8192x2048, .f32⟩
  | 39 => ⟨S8192x2048, .f32⟩
  | 40 => ⟨S_, .f32⟩
  | 41 => ⟨S8192x2048, .f32⟩
  | 42 => ⟨S8192x2048, .f32⟩
  | 43 => ⟨S8192x2048, .f32⟩
  | 44 => ⟨S8192x2048, .f32⟩
  | 45 => ⟨S1x2048x1024, .f32⟩
  | 46 => ⟨S2048x1024, .f32⟩
  | 47 => ⟨S8192x1024, .f32⟩
  | 48 => ⟨S_, .i32⟩
  | 49 => ⟨S8192, .i32⟩
  | 50 => ⟨S8192, .i1⟩
  | 51 => ⟨S8192x1, .i1⟩
  | 52 => ⟨S8192x1024, .i1⟩
  | 53 => ⟨S8192x1024, .f32⟩
  | 54 => ⟨S1x1024x4096, .f32⟩
  | 55 => ⟨S1024x4096, .f32⟩
  | 56 => ⟨S8192x4096, .f32⟩
  | 57 => ⟨S8192x2048, .f32⟩
  | 58 => ⟨S8192x2048, .f32⟩
  | 59 => ⟨S8192x2048, .f32⟩
  | 60 => ⟨S8192x2048, .f32⟩
  | 61 => ⟨S_, .f32⟩
  | 62 => ⟨S8192x2048, .f32⟩
  | 63 => ⟨S8192x2048, .f32⟩
  | 64 => ⟨S_, .f32⟩
  | 65 => ⟨S8192x2048, .f32⟩
  | 66 => ⟨S8192x2048, .f32⟩
  | 67 => ⟨S8192x2048, .f32⟩
  | 68 => ⟨S8192x2048, .f32⟩
  | 69 => ⟨S1x2048x1024, .f32⟩
  | 70 => ⟨S2048x1024, .f32⟩
  | 71 => ⟨S8192x1024, .f32⟩
  | 72 => ⟨S_, .i32⟩
  | 73 => ⟨S8192, .i32⟩
  | 74 => ⟨S8192, .i1⟩
  | 75 => ⟨S8192x1, .i1⟩
  | 76 => ⟨S8192x1024, .i1⟩
  | 77 => ⟨S8192x1024, .f32⟩
  | 78 => ⟨S1x1024x4096, .f32⟩
  | 79 => ⟨S1024x4096, .f32⟩
  | 80 => ⟨S8192x4096, .f32⟩
  | 81 => ⟨S8192x2048, .f32⟩
  | 82 => ⟨S8192x2048, .f32⟩
  | 83 => ⟨S8192x2048, .f32⟩
  | 84 => ⟨S8192x2048, .f32⟩
  | 85 => ⟨S_, .f32⟩
  | 86 => ⟨S8192x2048, .f32⟩
  | 87 => ⟨S8192x2048, .f32⟩
  | 88 => ⟨S_, .f32⟩
  | 89 => ⟨S8192x2048, .f32⟩
  | 90 => ⟨S8192x2048, .f32⟩
  | 91 => ⟨S8192x2048, .f32⟩
  | 92 => ⟨S8192x2048, .f32⟩
  | 93 => ⟨S1x2048x1024, .f32⟩
  | 94 => ⟨S2048x1024, .f32⟩
  | 95 => ⟨S8192x1024, .f32⟩
  | 96 => ⟨S_, .i32⟩
  | 97 => ⟨S8192, .i32⟩
  | 98 => ⟨S8192, .i1⟩
  | 99 => ⟨S8192x1, .i1⟩
  | 100 => ⟨S8192x1024, .i1⟩
  | 101 => ⟨S8192x1024, .f32⟩
  | 102 => ⟨S1x1024x4096, .f32⟩
  | 103 => ⟨S1024x4096, .f32⟩
  | 104 => ⟨S8192x4096, .f32⟩
  | 105 => ⟨S8192x2048, .f32⟩
  | 106 => ⟨S8192x2048, .f32⟩
  | 107 => ⟨S8192x2048, .f32⟩
  | 108 => ⟨S8192x2048, .f32⟩
  | 109 => ⟨S_, .f32⟩
  | 110 => ⟨S8192x2048, .f32⟩
  | 111 => ⟨S8192x2048, .f32⟩
  | 112 => ⟨S_, .f32⟩
  | 113 => ⟨S8192x2048, .f32⟩
  | 114 => ⟨S8192x2048, .f32⟩
  | 115 => ⟨S8192x2048, .f32⟩
  | 116 => ⟨S8192x2048, .f32⟩
  | 117 => ⟨S1x2048x1024, .f32⟩
  | 118 => ⟨S2048x1024, .f32⟩
  | 119 => ⟨S8192x1024, .f32⟩
  | 120 => ⟨S_, .i32⟩
  | 121 => ⟨S8192, .i32⟩
  | 122 => ⟨S8192, .i1⟩
  | 123 => ⟨S8192x1, .i1⟩
  | 124 => ⟨S8192x1024, .i1⟩
  | 125 => ⟨S8192x1024, .f32⟩
  | 126 => ⟨S1x1024x4096, .f32⟩
  | 127 => ⟨S1024x4096, .f32⟩
  | _ => ⟨S8192x1024, .f32⟩

abbrev hbmTy0_1 (i : Nat) : BufTy := match i % 128 with
  | 0 => ⟨S8192x4096, .f32⟩
  | 1 => ⟨S8192x2048, .f32⟩
  | 2 => ⟨S8192x2048, .f32⟩
  | 3 => ⟨S8192x2048, .f32⟩
  | 4 => ⟨S8192x2048, .f32⟩
  | 5 => ⟨S_, .f32⟩
  | 6 => ⟨S8192x2048, .f32⟩
  | 7 => ⟨S8192x2048, .f32⟩
  | 8 => ⟨S_, .f32⟩
  | 9 => ⟨S8192x2048, .f32⟩
  | 10 => ⟨S8192x2048, .f32⟩
  | 11 => ⟨S8192x2048, .f32⟩
  | 12 => ⟨S8192x2048, .f32⟩
  | 13 => ⟨S1x2048x1024, .f32⟩
  | 14 => ⟨S2048x1024, .f32⟩
  | 15 => ⟨S8192x1024, .f32⟩
  | 16 => ⟨S_, .i32⟩
  | 17 => ⟨S8192, .i32⟩
  | 18 => ⟨S8192, .i1⟩
  | 19 => ⟨S8192x1, .i1⟩
  | 20 => ⟨S8192x1024, .i1⟩
  | 21 => ⟨S8192x1024, .f32⟩
  | 22 => ⟨S1x1024x4096, .f32⟩
  | 23 => ⟨S1024x4096, .f32⟩
  | 24 => ⟨S8192x4096, .f32⟩
  | 25 => ⟨S8192x2048, .f32⟩
  | 26 => ⟨S8192x2048, .f32⟩
  | 27 => ⟨S8192x2048, .f32⟩
  | 28 => ⟨S8192x2048, .f32⟩
  | 29 => ⟨S_, .f32⟩
  | 30 => ⟨S8192x2048, .f32⟩
  | 31 => ⟨S8192x2048, .f32⟩
  | 32 => ⟨S_, .f32⟩
  | 33 => ⟨S8192x2048, .f32⟩
  | 34 => ⟨S8192x2048, .f32⟩
  | 35 => ⟨S8192x2048, .f32⟩
  | 36 => ⟨S8192x2048, .f32⟩
  | 37 => ⟨S1x2048x1024, .f32⟩
  | 38 => ⟨S2048x1024, .f32⟩
  | 39 => ⟨S8192x1024, .f32⟩
  | 40 => ⟨S_, .i32⟩
  | 41 => ⟨S8192, .i32⟩
  | 42 => ⟨S8192, .i1⟩
  | 43 => ⟨S8192x1, .i1⟩
  | 44 => ⟨S8192x1024, .i1⟩
  | 45 => ⟨S8192x1024, .f32⟩
  | 46 => ⟨S1x1024x4096, .f32⟩
  | 47 => ⟨S1024x4096, .f32⟩
  | 48 => ⟨S8192x4096, .f32⟩
  | 49 => ⟨S8192x2048, .f32⟩
  | 50 => ⟨S8192x2048, .f32⟩
  | 51 => ⟨S8192x2048, .f32⟩
  | 52 => ⟨S8192x2048, .f32⟩
  | 53 => ⟨S_, .f32⟩
  | 54 => ⟨S8192x2048, .f32⟩
  | 55 => ⟨S8192x2048, .f32⟩
  | 56 => ⟨S_, .f32⟩
  | 57 => ⟨S8192x2048, .f32⟩
  | 58 => ⟨S8192x2048, .f32⟩
  | 59 => ⟨S8192x2048, .f32⟩
  | 60 => ⟨S8192x2048, .f32⟩
  | 61 => ⟨S1x2048x1024, .f32⟩
  | 62 => ⟨S2048x1024, .f32⟩
  | 63 => ⟨S8192x1024, .f32⟩
  | 64 => ⟨S_, .i32⟩
  | 65 => ⟨S8192, .i32⟩
  | 66 => ⟨S8192, .i1⟩
  | 67 => ⟨S8192x1, .i1⟩
  | 68 => ⟨S8192x1024, .i1⟩
  | 69 => ⟨S8192x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_call1_v0 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_call2_v0 : Ref sig .tc := ⟨.hbm, 35, rfl⟩
abbrev main_call2_v1 : Ref sig .tc := ⟨.hbm, 36, rfl⟩
abbrev main_call2_cst : Ref sig .tc := ⟨.hbm, 37, rfl⟩
abbrev main_call2_v2 : Ref sig .tc := ⟨.hbm, 38, rfl⟩
abbrev main_call2_v3 : Ref sig .tc := ⟨.hbm, 39, rfl⟩
abbrev main_call2_cst_0 : Ref sig .tc := ⟨.hbm, 40, rfl⟩
abbrev main_call2_v4 : Ref sig .tc := ⟨.hbm, 41, rfl⟩
abbrev main_call2_v5 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_c_0 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_call3_v0 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_call4_v0 : Ref sig .tc := ⟨.hbm, 59, rfl⟩
abbrev main_call4_v1 : Ref sig .tc := ⟨.hbm, 60, rfl⟩
abbrev main_call4_cst : Ref sig .tc := ⟨.hbm, 61, rfl⟩
abbrev main_call4_v2 : Ref sig .tc := ⟨.hbm, 62, rfl⟩
abbrev main_call4_v3 : Ref sig .tc := ⟨.hbm, 63, rfl⟩
abbrev main_call4_cst_0 : Ref sig .tc := ⟨.hbm, 64, rfl⟩
abbrev main_call4_v4 : Ref sig .tc := ⟨.hbm, 65, rfl⟩
abbrev main_call4_v5 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_c_1 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_call5_v0 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_call6_v0 : Ref sig .tc := ⟨.hbm, 83, rfl⟩
abbrev main_call6_v1 : Ref sig .tc := ⟨.hbm, 84, rfl⟩
abbrev main_call6_cst : Ref sig .tc := ⟨.hbm, 85, rfl⟩
abbrev main_call6_v2 : Ref sig .tc := ⟨.hbm, 86, rfl⟩
abbrev main_call6_v3 : Ref sig .tc := ⟨.hbm, 87, rfl⟩
abbrev main_call6_cst_0 : Ref sig .tc := ⟨.hbm, 88, rfl⟩
abbrev main_call6_v4 : Ref sig .tc := ⟨.hbm, 89, rfl⟩
abbrev main_call6_v5 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_c_2 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_call7_v0 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_call8_v0 : Ref sig .tc := ⟨.hbm, 107, rfl⟩
abbrev main_call8_v1 : Ref sig .tc := ⟨.hbm, 108, rfl⟩
abbrev main_call8_cst : Ref sig .tc := ⟨.hbm, 109, rfl⟩
abbrev main_call8_v2 : Ref sig .tc := ⟨.hbm, 110, rfl⟩
abbrev main_call8_v3 : Ref sig .tc := ⟨.hbm, 111, rfl⟩
abbrev main_call8_cst_0 : Ref sig .tc := ⟨.hbm, 112, rfl⟩
abbrev main_call8_v4 : Ref sig .tc := ⟨.hbm, 113, rfl⟩
abbrev main_call8_v5 : Ref sig .tc := ⟨.hbm, 114, rfl⟩
abbrev main_v62 : Ref sig .tc := ⟨.hbm, 115, rfl⟩
abbrev main_v63 : Ref sig .tc := ⟨.hbm, 116, rfl⟩
abbrev main_v64 : Ref sig .tc := ⟨.hbm, 117, rfl⟩
abbrev main_v65 : Ref sig .tc := ⟨.hbm, 118, rfl⟩
abbrev main_v66 : Ref sig .tc := ⟨.hbm, 119, rfl⟩
abbrev main_c_3 : Ref sig .tc := ⟨.hbm, 120, rfl⟩
abbrev main_v67 : Ref sig .tc := ⟨.hbm, 121, rfl⟩
abbrev main_v68 : Ref sig .tc := ⟨.hbm, 122, rfl⟩
abbrev main_v69 : Ref sig .tc := ⟨.hbm, 123, rfl⟩
abbrev main_call9_v0 : Ref sig .tc := ⟨.hbm, 124, rfl⟩
abbrev main_v70 : Ref sig .tc := ⟨.hbm, 125, rfl⟩
abbrev main_v71 : Ref sig .tc := ⟨.hbm, 126, rfl⟩
abbrev main_v72 : Ref sig .tc := ⟨.hbm, 127, rfl⟩
abbrev main_v73 : Ref sig .tc := ⟨.hbm, 128, rfl⟩
abbrev main_v74 : Ref sig .tc := ⟨.hbm, 129, rfl⟩
abbrev main_v75 : Ref sig .tc := ⟨.hbm, 130, rfl⟩
abbrev main_call10_v0 : Ref sig .tc := ⟨.hbm, 131, rfl⟩
abbrev main_call10_v1 : Ref sig .tc := ⟨.hbm, 132, rfl⟩
abbrev main_call10_cst : Ref sig .tc := ⟨.hbm, 133, rfl⟩
abbrev main_call10_v2 : Ref sig .tc := ⟨.hbm, 134, rfl⟩
abbrev main_call10_v3 : Ref sig .tc := ⟨.hbm, 135, rfl⟩
abbrev main_call10_cst_0 : Ref sig .tc := ⟨.hbm, 136, rfl⟩
abbrev main_call10_v4 : Ref sig .tc := ⟨.hbm, 137, rfl⟩
abbrev main_call10_v5 : Ref sig .tc := ⟨.hbm, 138, rfl⟩
abbrev main_v76 : Ref sig .tc := ⟨.hbm, 139, rfl⟩
abbrev main_v77 : Ref sig .tc := ⟨.hbm, 140, rfl⟩
abbrev main_v78 : Ref sig .tc := ⟨.hbm, 141, rfl⟩
abbrev main_v79 : Ref sig .tc := ⟨.hbm, 142, rfl⟩
abbrev main_v80 : Ref sig .tc := ⟨.hbm, 143, rfl⟩
abbrev main_c_4 : Ref sig .tc := ⟨.hbm, 144, rfl⟩
abbrev main_v81 : Ref sig .tc := ⟨.hbm, 145, rfl⟩
abbrev main_v82 : Ref sig .tc := ⟨.hbm, 146, rfl⟩
abbrev main_v83 : Ref sig .tc := ⟨.hbm, 147, rfl⟩
abbrev main_call11_v0 : Ref sig .tc := ⟨.hbm, 148, rfl⟩
abbrev main_v84 : Ref sig .tc := ⟨.hbm, 149, rfl⟩
abbrev main_v85 : Ref sig .tc := ⟨.hbm, 150, rfl⟩
abbrev main_v86 : Ref sig .tc := ⟨.hbm, 151, rfl⟩
abbrev main_v87 : Ref sig .tc := ⟨.hbm, 152, rfl⟩
abbrev main_v88 : Ref sig .tc := ⟨.hbm, 153, rfl⟩
abbrev main_v89 : Ref sig .tc := ⟨.hbm, 154, rfl⟩
abbrev main_call12_v0 : Ref sig .tc := ⟨.hbm, 155, rfl⟩
abbrev main_call12_v1 : Ref sig .tc := ⟨.hbm, 156, rfl⟩
abbrev main_call12_cst : Ref sig .tc := ⟨.hbm, 157, rfl⟩
abbrev main_call12_v2 : Ref sig .tc := ⟨.hbm, 158, rfl⟩
abbrev main_call12_v3 : Ref sig .tc := ⟨.hbm, 159, rfl⟩
abbrev main_call12_cst_0 : Ref sig .tc := ⟨.hbm, 160, rfl⟩
abbrev main_call12_v4 : Ref sig .tc := ⟨.hbm, 161, rfl⟩
abbrev main_call12_v5 : Ref sig .tc := ⟨.hbm, 162, rfl⟩
abbrev main_v90 : Ref sig .tc := ⟨.hbm, 163, rfl⟩
abbrev main_v91 : Ref sig .tc := ⟨.hbm, 164, rfl⟩
abbrev main_v92 : Ref sig .tc := ⟨.hbm, 165, rfl⟩
abbrev main_v93 : Ref sig .tc := ⟨.hbm, 166, rfl⟩
abbrev main_v94 : Ref sig .tc := ⟨.hbm, 167, rfl⟩
abbrev main_c_5 : Ref sig .tc := ⟨.hbm, 168, rfl⟩
abbrev main_v95 : Ref sig .tc := ⟨.hbm, 169, rfl⟩
abbrev main_v96 : Ref sig .tc := ⟨.hbm, 170, rfl⟩
abbrev main_v97 : Ref sig .tc := ⟨.hbm, 171, rfl⟩
abbrev main_call13_v0 : Ref sig .tc := ⟨.hbm, 172, rfl⟩
abbrev main_v98 : Ref sig .tc := ⟨.hbm, 173, rfl⟩
abbrev main_v99 : Ref sig .tc := ⟨.hbm, 174, rfl⟩
abbrev main_v100 : Ref sig .tc := ⟨.hbm, 175, rfl⟩
abbrev main_v101 : Ref sig .tc := ⟨.hbm, 176, rfl⟩
abbrev main_v102 : Ref sig .tc := ⟨.hbm, 177, rfl⟩
abbrev main_v103 : Ref sig .tc := ⟨.hbm, 178, rfl⟩
abbrev main_call14_v0 : Ref sig .tc := ⟨.hbm, 179, rfl⟩
abbrev main_call14_v1 : Ref sig .tc := ⟨.hbm, 180, rfl⟩
abbrev main_call14_cst : Ref sig .tc := ⟨.hbm, 181, rfl⟩
abbrev main_call14_v2 : Ref sig .tc := ⟨.hbm, 182, rfl⟩
abbrev main_call14_v3 : Ref sig .tc := ⟨.hbm, 183, rfl⟩
abbrev main_call14_cst_0 : Ref sig .tc := ⟨.hbm, 184, rfl⟩
abbrev main_call14_v4 : Ref sig .tc := ⟨.hbm, 185, rfl⟩
abbrev main_call14_v5 : Ref sig .tc := ⟨.hbm, 186, rfl⟩
abbrev main_v104 : Ref sig .tc := ⟨.hbm, 187, rfl⟩
abbrev main_v105 : Ref sig .tc := ⟨.hbm, 188, rfl⟩
abbrev main_v106 : Ref sig .tc := ⟨.hbm, 189, rfl⟩
abbrev main_v107 : Ref sig .tc := ⟨.hbm, 190, rfl⟩
abbrev main_v108 : Ref sig .tc := ⟨.hbm, 191, rfl⟩
abbrev main_c_6 : Ref sig .tc := ⟨.hbm, 192, rfl⟩
abbrev main_v109 : Ref sig .tc := ⟨.hbm, 193, rfl⟩
abbrev main_v110 : Ref sig .tc := ⟨.hbm, 194, rfl⟩
abbrev main_v111 : Ref sig .tc := ⟨.hbm, 195, rfl⟩
abbrev main_call15_v0 : Ref sig .tc := ⟨.hbm, 196, rfl⟩
abbrev main_v112 : Ref sig .tc := ⟨.hbm, 197, rfl⟩

abbrev nD : Nat := 1
abbrev τ : Topo := Topo.v7x

variable {F : FTy → Type} [FloatOps F]

class Facts₀ : Prop where
  bcast_S_S8192x1024 : S_.BroadcastsInDim S8192x1024 (![] : Fin 0 → Fin S8192x1024.rank)
  slices_S8x1024x4096_S1x1024x4096_0_0_0 : S8x1024x4096.Slices ![0, 0, 0] S1x1024x4096
  shapeCasts_S1x1024x4096_S1024x4096 : S1x1024x4096.ShapeCasts S1024x4096
  slices_S8192x4096_S8192x2048_0_0 : S8192x4096.Slices ![0, 0] S8192x2048
  slices_S8192x4096_S8192x2048_0_2048 : S8192x4096.Slices ![0, 2048] S8192x2048
  bcast_S_S8192x2048 : S_.BroadcastsInDim S8192x2048 (![] : Fin 0 → Fin S8192x2048.rank)
  slices_S8x2048x1024_S1x2048x1024_0_0_0 : S8x2048x1024.Slices ![0, 0, 0] S1x2048x1024
  shapeCasts_S1x2048x1024_S2048x1024 : S1x2048x1024.ShapeCasts S2048x1024
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x1024_0_1 : S8192x1.BroadcastsInDim S8192x1024 (![0, 1] : Fin 2 → Fin S8192x1024.rank)
  slices_S8x1024x4096_S1x1024x4096_1_0_0 : S8x1024x4096.Slices ![1, 0, 0] S1x1024x4096
  slices_S8x2048x1024_S1x2048x1024_1_0_0 : S8x2048x1024.Slices ![1, 0, 0] S1x2048x1024
  slices_S8x1024x4096_S1x1024x4096_2_0_0 : S8x1024x4096.Slices ![2, 0, 0] S1x1024x4096
  slices_S8x2048x1024_S1x2048x1024_2_0_0 : S8x2048x1024.Slices ![2, 0, 0] S1x2048x1024
  slices_S8x1024x4096_S1x1024x4096_3_0_0 : S8x1024x4096.Slices ![3, 0, 0] S1x1024x4096
  slices_S8x2048x1024_S1x2048x1024_3_0_0 : S8x2048x1024.Slices ![3, 0, 0] S1x2048x1024
  slices_S8x1024x4096_S1x1024x4096_4_0_0 : S8x1024x4096.Slices ![4, 0, 0] S1x1024x4096
  slices_S8x2048x1024_S1x2048x1024_4_0_0 : S8x2048x1024.Slices ![4, 0, 0] S1x2048x1024
  slices_S8x1024x4096_S1x1024x4096_5_0_0 : S8x1024x4096.Slices ![5, 0, 0] S1x1024x4096
  slices_S8x2048x1024_S1x2048x1024_5_0_0 : S8x2048x1024.Slices ![5, 0, 0] S1x2048x1024
  slices_S8x1024x4096_S1x1024x4096_6_0_0 : S8x1024x4096.Slices ![6, 0, 0] S1x1024x4096
  slices_S8x2048x1024_S1x2048x1024_6_0_0 : S8x2048x1024.Slices ![6, 0, 0] S1x2048x1024
  slices_S8x1024x4096_S1x1024x4096_7_0_0 : S8x1024x4096.Slices ![7, 0, 0] S1x1024x4096
  slices_S8x2048x1024_S1x2048x1024_7_0_0 : S8x2048x1024.Slices ![7, 0, 0] S1x2048x1024
  dot_S8192x1024_S1024x4096_S8192x4096_1_0_0_1_n_n_wf : DotDims.WF S8192x1024 S1024x4096 S8192x4096 [1] [0] [0] [1] [] []
  dot_S8192x2048_S2048x1024_S8192x1024_1_0_0_1_n_n_wf : DotDims.WF S8192x2048 S2048x1024 S8192x1024 [1] [0] [0] [1] [] []

variable [Facts₀]

def dot_S8192x1024_S1024x4096_S8192x4096_1_0_0_1_n_n : DotDims S8192x1024 S1024x4096 S8192x4096 where
  lhsContracting := [1]
  rhsContracting := [0]
  lhsNonContracting := [0]
  rhsNonContracting := [1]
  lhsBatch := []
  rhsBatch := []
  wf := dot_S8192x1024_S1024x4096_S8192x4096_1_0_0_1_n_n_wf
def dot_S8192x2048_S2048x1024_S8192x1024_1_0_0_1_n_n : DotDims S8192x2048 S2048x1024 S8192x1024 where
  lhsContracting := [1]
  rhsContracting := [0]
  lhsNonContracting := [0]
  rhsNonContracting := [1]
  lhsBatch := []
  rhsBatch := []
  wf := dot_S8192x2048_S2048x1024_S8192x1024_1_0_0_1_n_n_wf

class Facts : Prop extends Facts₀ where

variable [Facts]
-- ==== Proof.ExpertMath.lean ====
/-
  One expert's feed-forward layer, and choosing one expert among eight.

  A token row `h` (1024 entries) is taken through an expert whose first matrix `wg` has 4096 columns — the lower
  2048 the gate, the upper 2048 the up projection — and read at one column of the second matrix, whose entries
  along that column are `wd`:   `mlp h wg wd = Σ_l (up_l · (gate_l · σ(gate_l))) · wd_l`   with
  `gate_l = Σ_k h_k · wg_k,l`, `up_l = Σ_k h_k · wg_k,2048+l` and `σ` the logistic function, all on the extended reals.

  Eight experts are mixed by a token's expert word `w`.  Adding up each expert's value times the indicator of
  `w = e` (the indicator is exactly 0 or 1, and `x · 0 = 0`, `x · 1 = x` for every extended real, the infinities
  included) gives the same number as overwriting, expert after expert, where `w = e`: at most one indicator is 1.
-/
import Idealize.ShloMosaic.PureOps.Ideal
import Idealize.ShloMosaic.Lib.ValueIdx

noncomputable section

open Idealize.ShloMosaic

namespace Cert.ExpertMath

/-- Column `l` of the gate half of an expert's first matrix. -/
abbrev lo (l : Fin 2048) : Fin 4096 := ⟨l.val, by omega⟩
/-- Column `l` of the up half of an expert's first matrix. -/
abbrev hi (l : Fin 2048) : Fin 4096 := ⟨2048 + l.val, by omega⟩

/-- One expert applied to one token row, read at one output column. -/
def mlp (h : Fin 1024 → EReal) (wg : Fin 1024 → Fin 4096 → EReal) (wd : Fin 2048 → EReal) : EReal :=
  ∑ l : Fin 2048, ((∑ k : Fin 1024, h k * wg k (hi l)) *
      ((∑ k : Fin 1024, h k * wg k (lo l)) * Ideal.logistic (∑ k : Fin 1024, h k * wg k (lo l)))) * wd l

/-- The indicator of "the token's expert word is `e`". -/
def ind (w : BitVec 32) (e : ℕ) : EReal := if w = BitVec.ofNat 32 e then 1 else 0

/-- An equality test widened to a word and converted to a float is the indicator of the equality. -/
theorem sitofp_eq_test (a b : BitVec 32) :
    FloatOps.sitofp (F := Ideal) .f32 ((IntOp.cmpi .eq a b).setWidth 32) = if a = b then (1 : EReal) else 0 := by
  by_cases h : a = b
  · subst h
    simp [IntOp.cmpi, FloatOps.sitofp]
  · have hb : (a == b) = false := by simpa using h
    simp [IntOp.cmpi, FloatOps.sitofp, hb, h]

/-- A choice on an equality test is a choice on the equality. -/
theorem select_eq_test {α : Type} (a b : BitVec 32) (x y : α) :
    Scalar.select (IntOp.cmpi .eq a b) x y = if a = b then x else y := by
  by_cases h : a = b
  · subst h
    simp [IntOp.cmpi, Scalar.select]
  · have hb : (a == b) = false := by simpa using h
    simp [IntOp.cmpi, Scalar.select, hb, h]

/-- Summing the eight experts' values against the indicators of the token's word is overwriting expert after
    expert where the word matches. -/
theorem masked_sum_eq_overwrite (w : BitVec 32) (n : ℕ → EReal) :
    (0 : EReal) + ∑ s ∈ Finset.range 8, n s * ind w s
      = if w = 7#32 then n 7 else if w = 6#32 then n 6 else if w = 5#32 then n 5 else if w = 4#32 then n 4
        else if w = 3#32 then n 3 else if w = 2#32 then n 2 else if w = 1#32 then n 1 else if w = 0#32 then n 0 else 0 := by
  simp only [Finset.sum_range_succ, Finset.sum_range_zero, ind]
  by_cases h7 : w = 7#32
  · subst h7; simp
  by_cases h6 : w = 6#32
  · subst h6; simp
  by_cases h5 : w = 5#32
  · subst h5; simp
  by_cases h4 : w = 4#32
  · subst h4; simp
  by_cases h3 : w = 3#32
  · subst h3; simp
  by_cases h2 : w = 2#32
  · subst h2; simp
  by_cases h1 : w = 1#32
  · subst h1; simp
  by_cases h0 : w = 0#32
  · subst h0; simp
  simp [h0, h1, h2, h3, h4, h5, h6, h7]

end Cert.ExpertMath

end
-- ==== Proof.LibDotRows.lean ====
/-
  The host's matrix product read by row and column, on the extended reals.

  For any extents: the product of an `M × K` by a `K × N` matrix (one contracted axis, no batch axis) read at an
  index whose row is `i` and whose column is `j` is the sum over `l` of `A (i, l) · B (l, j)`: the same sum a
  matrix unit forms into a zero accumulator.
-/
import Idealize.ShloMosaic.PureOps.Ideal.Laws
import Idealize.ShloMosaic.Lib.ValueIdx

noncomputable section

open Idealize.ShloMosaic Idealize.ShloMosaic.ValueIdx

namespace Cert.DotRows

/-- The product read at `(i, j)`.  The four hypotheses say which coordinate of each operand index is the row,
    the column and the contracted position; at a literal record each holds by computation. -/
theorem dotGeneral_apply {M K N : Nat} {φ₁ φ₂ : FTy} (d : DotDims ⟨2, ![M, K]⟩ ⟨2, ![K, N]⟩ ⟨2, ![M, N]⟩)
    (hr : d.contr.rank = 1) (hs : d.contr.size ⟨0, by omega⟩ = K)
    (hl0 : ∀ j k, (d.lhsIdx j k 0).val = (j 0).val) (hl1 : ∀ j k, (d.lhsIdx j k 1).val = (k ⟨0, by omega⟩).val)
    (hr0 : ∀ j k, (d.rhsIdx j k 0).val = (k ⟨0, by omega⟩).val) (hr1 : ∀ j k, (d.rhsIdx j k 1).val = (j 1).val)
    (A : FVec Ideal ⟨2, ![M, K]⟩ φ₁) (B : FVec Ideal ⟨2, ![K, N]⟩ φ₂) (i : Fin M) (j : Fin N) :
    Host.dotGeneral d none A B (ix2 i j) = ∑ l : Fin K, A (ix2 i l) * B (ix2 l j) := by
  show FloatOps.dotGeneral d none .single A B (ix2 i j) = _
  rw [Ideal.dotGeneral_apply, ← Equiv.sum_comp (contrEquiv1 d K hr hs).symm]
  refine Finset.sum_congr rfl fun l _ => ?_
  have e1 : d.lhsIdx (ix2 i j) ((contrEquiv1 d K hr hs).symm l) = ix2 i l := by
    funext a; apply Fin.ext
    match a with
    | ⟨0, _⟩ => exact hl0 _ _
    | ⟨1, _⟩ => exact (hl1 _ _).trans (contrEquiv1_symm_val d K hr hs l)
  have e2 : d.rhsIdx (ix2 i j) ((contrEquiv1 d K hr hs).symm l) = ix2 l j := by
    funext a; apply Fin.ext
    match a with
    | ⟨0, _⟩ => exact (hr0 _ _).trans (contrEquiv1_symm_val d K hr hs l)
    | ⟨1, _⟩ => exact hr1 _ _
  rw [e1, e2]

end Cert.DotRows

end
-- ==== Proof.LibSliceRows.lean ====
/-
  Slabs, column ranges and column spreads, read at an index.

  General lemmas, for any extents and element type: slab `e` of an `[n, a, b]` array — cut out as a `[1, a, b]`
  slice and viewed as an `a × b` matrix — read at `(i, j)` is the array at `(e, i, j)`; a range of columns of a
  matrix read at `(i, l)` is the matrix at `(i, o + l)`; a vector spread as a one-column matrix, and a one-column
  matrix spread over many columns, by the host's broadcast along named axes, read the vector (the column) at the row.
-/
import Idealize.ShloMosaic.Lib.ValueIdx
import Idealize.ShloMosaic.Lib.ValueLayout
import Idealize.ShloMosaic.Lib.Pipeline.Value

noncomputable section

open Idealize.ShloMosaic Idealize.ShloMosaic.ValueIdx

namespace Cert.SliceRows

variable {α : Type}

/-- Slab `e` of an `[n, a, b]` array, sliced out with its unit leading axis and viewed as a matrix, read at `(i, j)`. -/
theorem slab_apply {n a b : Nat} (e : Fin n) (o : Nat) (ho : o = e.val) (x : (⟨3, ![n, a, b]⟩ : Shape).Idx → α)
    (h : (⟨3, ![n, a, b]⟩ : Shape).Slices ![o, 0, 0] ⟨3, ![1, a, b]⟩)
    (hc : (⟨3, ![1, a, b]⟩ : Shape).ShapeCasts ⟨2, ![a, b]⟩) (i : Fin a) (j : Fin b) :
    shapeCast ⟨2, ![a, b]⟩ (extractStridedSlice ⟨3, ![1, a, b]⟩ ![o, 0, 0] x h) hc (ix2 i j) = x (ix3 e i j) := by
  subst ho
  rw [shapeCast_1ab_ab_apply]
  refine extractStridedSlice_apply _ x h _ _ fun ax => ?_
  match ax with
  | ⟨0, _⟩ => show e.val = e.val + 0; rfl
  | ⟨1, _⟩ => show i.val = 0 + i.val; omega
  | ⟨2, _⟩ => show j.val = 0 + j.val; omega

/-- Columns `o … o + w - 1` of an `a × n` matrix, read at `(i, l)`: the matrix at `(i, o + l)`. -/
theorem columns_apply {a n w : Nat} (o : Nat) (x : (⟨2, ![a, n]⟩ : Shape).Idx → α)
    (h : (⟨2, ![a, n]⟩ : Shape).Slices ![0, o] ⟨2, ![a, w]⟩) (i : Fin a) (l : Fin w) (l' : Fin n) (hl : l'.val = o + l.val) :
    extractStridedSlice ⟨2, ![a, w]⟩ ![0, o] x h (ix2 i l) = x (ix2 i l') := by
  refine extractStridedSlice_apply _ x h _ _ fun ax => ?_
  match ax with
  | ⟨0, _⟩ => show i.val = 0 + i.val; omega
  | ⟨1, _⟩ => exact hl

/-- A vector of length `a` spread as an `a × 1` matrix along axis 0 reads, at `(i, 0)`, the vector at `i`. -/
theorem hostColumn_apply {a : Nat} (h : (⟨1, ![a]⟩ : Shape).BroadcastsInDim ⟨2, ![a, 1]⟩ ![0])
    (v : (⟨1, ![a]⟩ : Shape).Idx → α) (i : Fin a) (z : Fin 1) :
    broadcastInDim ⟨2, ![a, 1]⟩ ![0] h v (ix2 i z) = v (ix1 i) := by
  refine broadcastInDim_apply _ h v (ix2 i z) (ix1 i) fun ax => ?_
  match ax with
  | ⟨0, _⟩ =>
    show i.val = if a = 1 then 0 else i.val
    split
    · have := i.isLt; omega
    · rfl

/-- An `a × 1` matrix spread over `b` columns along axes `[0, 1]` reads, at `(i, j)`, its one column at `i`. -/
theorem hostColumns_apply {a b : Nat} (h : (⟨2, ![a, 1]⟩ : Shape).BroadcastsInDim ⟨2, ![a, b]⟩ ![0, 1])
    (v : (⟨2, ![a, 1]⟩ : Shape).Idx → α) (i : Fin a) (j : Fin b) :
    broadcastInDim ⟨2, ![a, b]⟩ ![0, 1] h v (ix2 i j) = v (ix2 i (0 : Fin 1)) := by
  refine broadcastInDim_apply _ h v (ix2 i j) (ix2 i (0 : Fin 1)) fun ax => ?_
  match ax with
  | ⟨0, _⟩ =>
    show i.val = if a = 1 then 0 else i.val
    split
    · have := i.isLt; omega
    · rfl
  | ⟨1, _⟩ => rfl

end Cert.SliceRows

end
-- ==== Proof.RefStage.lean ====
/-
  The reference's result, one expert's stage at a time, read at an index.

  The reference visits the experts `e = 0 … 7` in order.  At each it multiplies the whole token matrix `X` by the
  expert's first matrix (slab `e` of `Wg`), splits the product's columns into the gate half and the up half,
  forms `up · (gate · (1 / (1 + exp(−gate))))`, multiplies by the expert's second matrix (slab `e` of `Wd`) and
  keeps the new rows where the token's expert word equals `e`, the rows it had elsewhere.  It starts from zeros.

  Read at row `r` and column `j`, one stage is: the expert's layer (`mlp`) of row `r` of `X` against column `j` of
  the second matrix if the word of row `r` is `e`, and what was there otherwise.  The quotient `1 / (1 + exp(−g))`
  is the logistic function of `g` on every extended real, by the definition of that function.
-/
import proofs.«170278_j1460288880661_1_alg».proof.Proof.ReferenceRun
import proofs.«170278_j1460288880661_1_alg».proof.Proof.ExpertMath
import proofs.«170278_j1460288880661_1_alg».proof.Proof.LibDotRows
import proofs.«170278_j1460288880661_1_alg».proof.Proof.LibSliceRows
import Idealize.ShloMosaic.Lib.IdealHost

noncomputable section

open Idealize.ShloMosaic Idealize.ShloMosaic.TcCoe Idealize.SL.Sem Idealize.ShloMosaic.ValueIdx

namespace Cert.ReferenceIdeal.RefValue

open Cert.ReferenceIdeal Cert.ReferenceIdeal.Gen Cert.ReferenceIdeal.ValueP Cert.ExpertMath

/-- The token matrix times an expert's first matrix (the slab the offsets `og` cut out of `Wg`). -/
def gateUp (og : Fin 3 → Nat) (hg : S8x1024x4096.Slices og S1x1024x4096)
    (X : FVec Ideal S8192x1024 .f32) (Wg : FVec Ideal S8x1024x4096 .f32) : FVec Ideal S8192x4096 .f32 :=
  Host.dotGeneral dot_S8192x1024_S1024x4096_S8192x4096_1_0_0_1_n_n none X
    (shapeCast _ (extractStridedSlice S1x1024x4096 og Wg hg) shapeCasts_S1x1024x4096_S1024x4096)

/-- One expert's stage of the reference: the expert's layer of every token, kept where the token's word is `w`. -/
def stage (og : Fin 3 → Nat) (hg : S8x1024x4096.Slices og S1x1024x4096)
    (od : Fin 3 → Nat) (hd : S8x2048x1024.Slices od S1x2048x1024) (w : BitVec 32)
    (X : FVec Ideal S8192x1024 .f32) (idx : IVec S8192 32) (Wg : FVec Ideal S8x1024x4096 .f32)
    (Wd : FVec Ideal S8x2048x1024 .f32) (prev : FVec Ideal S8192x1024 .f32) : FVec Ideal S8192x1024 .f32 :=
  select (broadcastInDim S8192x1024 ![0, 1] bcast_S8192x1_S8192x1024_0_1 (broadcastInDim S8192x1 ![0] bcast_S8192_S8192x1_0
      (cmpi .eq idx (broadcastInDim S8192 ![] bcast_S_S8192 (constantI S_ 32 w)))))
    (Host.dotGeneral dot_S8192x2048_S2048x1024_S8192x1024_1_0_0_1_n_n none
      (mulf (extractStridedSlice S8192x2048 ![0, 2048] (gateUp og hg X Wg) slices_S8192x4096_S8192x2048_0_2048)
        (mulf (extractStridedSlice S8192x2048 ![0, 0] (gateUp og hg X Wg) slices_S8192x4096_S8192x2048_0_0)
          (Host.divf (broadcastInDim S8192x2048 ![] bcast_S_S8192x2048 (constant S_ .f32 0x3F800000#32))
            (addf (broadcastInDim S8192x2048 ![] bcast_S_S8192x2048 (constant S_ .f32 0x3F800000#32))
              (Host.exp (Host.negf (extractStridedSlice S8192x2048 ![0, 0] (gateUp og hg X Wg) slices_S8192x4096_S8192x2048_0_0)))))))
      (shapeCast _ (extractStridedSlice S1x2048x1024 od Wd hd) shapeCasts_S1x2048x1024_S2048x1024))
    prev

/-- The product of the token matrix and expert `e`'s first matrix, read at `(r, l)`. -/
theorem gateUp_apply (e : Fin 8) (o : Nat) (ho : o = e.val) (hg : S8x1024x4096.Slices ![o, 0, 0] S1x1024x4096)
    (X : FVec Ideal S8192x1024 .f32) (Wg : FVec Ideal S8x1024x4096 .f32) (r : Fin 8192) (l : Fin 4096) :
    gateUp ![o, 0, 0] hg X Wg (ix2 r l) = ∑ k : Fin 1024, X (ix2 r k) * Wg (ix3 e k l) := by
  unfold gateUp
  rw [Cert.DotRows.dotGeneral_apply dot_S8192x1024_S1024x4096_S8192x4096_1_0_0_1_n_n rfl rfl
    (fun _ _ => rfl) (fun _ _ => rfl) (fun _ _ => rfl) (fun _ _ => rfl)]
  refine Finset.sum_congr rfl fun k _ => ?_
  rw [Cert.SliceRows.slab_apply e o ho]

/-- One stage read at row `r`, column `j`. -/
theorem stage_apply (e : Fin 8) (o : Nat) (ho : o = e.val)
    (hg : S8x1024x4096.Slices ![o, 0, 0] S1x1024x4096) (hd : S8x2048x1024.Slices ![o, 0, 0] S1x2048x1024)
    (X : FVec Ideal S8192x1024 .f32) (idx : IVec S8192 32) (Wg : FVec Ideal S8x1024x4096 .f32)
    (Wd : FVec Ideal S8x2048x1024 .f32) (prev : FVec Ideal S8192x1024 .f32) (r : Fin 8192) (j : Fin 1024) :
    stage ![o, 0, 0] hg ![o, 0, 0] hd (BitVec.ofNat 32 o) X idx Wg Wd prev (ix2 r j)
      = if idx (ix1 r) = BitVec.ofNat 32 o
        then mlp (fun k => X (ix2 r k)) (fun k l => Wg (ix3 e k l)) (fun l => Wd (ix3 e l j))
        else prev (ix2 r j) := by
  unfold stage
  rw [select_apply, Cert.SliceRows.hostColumns_apply, Cert.SliceRows.hostColumn_apply]
  show Scalar.select (IntOp.cmpi .eq (idx (ix1 r)) (broadcastInDim S8192 ![] bcast_S_S8192 (constantI S_ 32 (BitVec.ofNat 32 o)) (ix1 r))) _ _ = _
  rw [broadcastInDim_scalar_apply, select_eq_test]
  show (if idx (ix1 r) = BitVec.ofNat 32 o then _ else _) = _
  refine if_congr Iff.rfl ?_ rfl
  rw [Cert.DotRows.dotGeneral_apply dot_S8192x2048_S2048x1024_S8192x1024_1_0_0_1_n_n rfl rfl
    (fun _ _ => rfl) (fun _ _ => rfl) (fun _ _ => rfl) (fun _ _ => rfl)]
  unfold mlp
  refine Finset.sum_congr rfl fun l _ => ?_
  rw [Cert.SliceRows.slab_apply e o ho, mulf_apply, mulf_apply,
    Cert.SliceRows.columns_apply 2048 _ _ r l (hi l) rfl,
    Cert.SliceRows.columns_apply 0 _ _ r l (lo l) (by show l.val = 0 + l.val; omega),
    gateUp_apply e o ho, gateUp_apply e o ho]
  show _ * (_ * Ideal.div (broadcastInDim S8192x2048 ![] bcast_S_S8192x2048 (constant (F := Ideal) S_ .f32 0x3F800000#32) (ix2 r l))
      (broadcastInDim S8192x2048 ![] bcast_S_S8192x2048 (constant (F := Ideal) S_ .f32 0x3F800000#32) (ix2 r l)
        + Ideal.exp (-(extractStridedSlice S8192x2048 ![0, 0] (gateUp ![o, 0, 0] hg X Wg) slices_S8192x4096_S8192x2048_0_0 (ix2 r l))))) * _ = _
  rw [broadcastInDim_scalar_apply, constant_apply, Ideal.ofBits_one_f32,
    Cert.SliceRows.columns_apply 0 _ _ r l (lo l) (by show l.val = 0 + l.val; omega), gateUp_apply e o ho]
  rfl

/-- The reference's result as the eight stages, innermost first, from zeros. -/
theorem res_eq_stages (X : FVec Ideal S8192x1024 .f32) (idx : IVec S8192 32) (Wg : FVec Ideal S8x1024x4096 .f32)
    (Wd : FVec Ideal S8x2048x1024 .f32) (m : (ℓ : Loc nD τ sig) → Buf (Elt Ideal) ℓ) (c : Dev nD)
    (h0 : m ((c.tc : Thread nD τ).loc main_arg0) = X) (h1 : m ((c.tc : Thread nD τ).loc main_arg1) = idx)
    (h2 : m ((c.tc : Thread nD τ).loc main_arg2) = Wg) (h3 : m ((c.tc : Thread nD τ).loc main_arg3) = Wd) :
    res_main_v112 (F := Ideal) m c =
      (stage ![7, 0, 0] slices_S8x1024x4096_S1x1024x4096_7_0_0 ![7, 0, 0] slices_S8x2048x1024_S1x2048x1024_7_0_0 7#32 X idx Wg Wd
      (stage ![6, 0, 0] slices_S8x1024x4096_S1x1024x4096_6_0_0 ![6, 0, 0] slices_S8x2048x1024_S1x2048x1024_6_0_0 6#32 X idx Wg Wd
      (stage ![5, 0, 0] slices_S8x1024x4096_S1x1024x4096_5_0_0 ![5, 0, 0] slices_S8x2048x1024_S1x2048x1024_5_0_0 5#32 X idx Wg Wd
      (stage ![4, 0, 0] slices_S8x1024x4096_S1x1024x4096_4_0_0 ![4, 0, 0] slices_S8x2048x1024_S1x2048x1024_4_0_0 4#32 X idx Wg Wd
      (stage ![3, 0, 0] slices_S8x1024x4096_S1x1024x4096_3_0_0 ![3, 0, 0] slices_S8x2048x1024_S1x2048x1024_3_0_0 3#32 X idx Wg Wd
      (stage ![2, 0, 0] slices_S8x1024x4096_S1x1024x4096_2_0_0 ![2, 0, 0] slices_S8x2048x1024_S1x2048x1024_2_0_0 2#32 X idx Wg Wd
      (stage ![1, 0, 0] slices_S8x1024x4096_S1x1024x4096_1_0_0 ![1, 0, 0] slices_S8x2048x1024_S1x2048x1024_1_0_0 1#32 X idx Wg Wd
      (stage ![0, 0, 0] slices_S8x1024x4096_S1x1024x4096_0_0_0 ![0, 0, 0] slices_S8x2048x1024_S1x2048x1024_0_0_0 0#32 X idx Wg Wd
      (broadcastInDim S8192x1024 ![] bcast_S_S8192x1024 (constant S_ .f32 0x00000000#32)))))))))) := by
  subst h0 h1 h2 h3
  rfl

end Cert.ReferenceIdeal.RefValue

end
-- ==== Proof.ExpertPick.lean ====
/-
  The common value of the two programs: each token's own expert's layer.

  `layer s r j` is expert `s`'s layer (`mlp`) of token row `r` of `X`, read at output column `j`; `pick r j` is the
  layer of the expert whose number is the token's word — the last of the experts `0 … 7` that matches, which for a
  word is the only one — and zero when the word names no expert.
-/
import proofs.«170278_j1460288880661_1_alg».proof.Proof.ExpertMath

noncomputable section

open Idealize.ShloMosaic Idealize.ShloMosaic.ValueIdx

namespace Cert.ExpertMath

/-- Expert `s` (taken modulo 8) applied to token `r`, read at column `j`. -/
def layer (X : (⟨2, ![8192, 1024]⟩ : Shape).Idx → EReal) (Wg : (⟨3, ![8, 1024, 4096]⟩ : Shape).Idx → EReal)
    (Wd : (⟨3, ![8, 2048, 1024]⟩ : Shape).Idx → EReal) (s : ℕ) (r : Fin 8192) (j : Fin 1024) : EReal :=
  mlp (fun k => X (ix2 r k)) (fun k l => Wg (ix3 (⟨s % 8, Nat.mod_lt _ (by decide)⟩ : Fin 8) k l))
    (fun l => Wd (ix3 (⟨s % 8, Nat.mod_lt _ (by decide)⟩ : Fin 8) l j))

/-- Only the expert's number modulo 8 matters. -/
theorem layer_congr (X : (⟨2, ![8192, 1024]⟩ : Shape).Idx → EReal) (Wg : (⟨3, ![8, 1024, 4096]⟩ : Shape).Idx → EReal)
    (Wd : (⟨3, ![8, 2048, 1024]⟩ : Shape).Idx → EReal) (s s' : ℕ) (h : s % 8 = s' % 8) (r : Fin 8192) (j : Fin 1024) :
    layer X Wg Wd s r j = layer X Wg Wd s' r j := by
  unfold layer
  have e : (⟨s % 8, Nat.mod_lt _ (by decide)⟩ : Fin 8) = ⟨s' % 8, Nat.mod_lt _ (by decide)⟩ := Fin.ext h
  rw [e]

/-- The token's own expert's layer: overwriting expert after expert where the word matches, from zero. -/
def pick (X : (⟨2, ![8192, 1024]⟩ : Shape).Idx → EReal) (idx : (⟨1, ![8192]⟩ : Shape).Idx → BitVec 32)
    (Wg : (⟨3, ![8, 1024, 4096]⟩ : Shape).Idx → EReal) (Wd : (⟨3, ![8, 2048, 1024]⟩ : Shape).Idx → EReal)
    (r : Fin 8192) (j : Fin 1024) : EReal :=
  if idx (ix1 r) = 7#32 then layer X Wg Wd 7 r j else if idx (ix1 r) = 6#32 then layer X Wg Wd 6 r j
  else if idx (ix1 r) = 5#32 then layer X Wg Wd 5 r j else if idx (ix1 r) = 4#32 then layer X Wg Wd 4 r j
  else if idx (ix1 r) = 3#32 then layer X Wg Wd 3 r j else if idx (ix1 r) = 2#32 then layer X Wg Wd 2 r j
  else if idx (ix1 r) = 1#32 then layer X Wg Wd 1 r j else if idx (ix1 r) = 0#32 then layer X Wg Wd 0 r j else 0

end Cert.ExpertMath

end
-- ==== Proof.RefResult.lean ====
/-
  The reference's result at an index: each token's own expert's layer.

  The eight stages, read at row `r` and column `j` from the outermost (expert 7) to the innermost (expert 0), are a
  chain of choices on the token's word; the innermost falls back on the zeros the reference starts from.
-/
import proofs.«170278_j1460288880661_1_alg».proof.Proof.RefStage
import proofs.«170278_j1460288880661_1_alg».proof.Proof.ExpertPick

noncomputable section

open Idealize.ShloMosaic Idealize.ShloMosaic.TcCoe Idealize.SL.Sem Idealize.ShloMosaic.ValueIdx

namespace Cert.ReferenceIdeal.RefValue

open Cert.ReferenceIdeal Cert.ReferenceIdeal.Gen Cert.ReferenceIdeal.ValueP Cert.ExpertMath

/-- The reference's result at row `r`, column `j`. -/
theorem res_apply (m : (ℓ : Loc nD τ sig) → Buf (Elt Ideal) ℓ) (c : Dev nD) (r : Fin 8192) (j : Fin 1024) :
    res_main_v112 (F := Ideal) m c (ix2 r j)
      = pick (m ((c.tc : Thread nD τ).loc main_arg0)) (m ((c.tc : Thread nD τ).loc main_arg1))
          (m ((c.tc : Thread nD τ).loc main_arg2)) (m ((c.tc : Thread nD τ).loc main_arg3)) r j := by
  rw [res_eq_stages _ _ _ _ m c rfl rfl rfl rfl]
  rw [stage_apply ⟨7 % 8, Nat.mod_lt _ (by decide)⟩ 7 rfl,
    stage_apply ⟨6 % 8, Nat.mod_lt _ (by decide)⟩ 6 rfl,
    stage_apply ⟨5 % 8, Nat.mod_lt _ (by decide)⟩ 5 rfl,
    stage_apply ⟨4 % 8, Nat.mod_lt _ (by decide)⟩ 4 rfl,
    stage_apply ⟨3 % 8, Nat.mod_lt _ (by decide)⟩ 3 rfl,
    stage_apply ⟨2 % 8, Nat.mod_lt _ (by decide)⟩ 2 rfl,
    stage_apply ⟨1 % 8, Nat.mod_lt _ (by decide)⟩ 1 rfl,
    stage_apply ⟨0 % 8, Nat.mod_lt _ (by decide)⟩ 0 rfl]
  rw [broadcastInDim_scalar_apply, constant_apply, Ideal.ofBits_zero_f32]
  rfl

end Cert.ReferenceIdeal.RefValue

end
-- ==== Proof.LibMatRows.lean ====
/-
  Matrices read by row and column, on the extended reals.

  General lemmas, for any extents: a matrix product into a zero accumulator read at `(i, j)` as the sum over
  `l` of `A (i, l) · B (l, j)`; the sum of a matrix along its rows read at `i` as the sum of row `i`; a vector
  viewed as a one-column matrix; a one-column matrix spread over many columns; and two blocks of equal width
  set side by side.  Indices are built from their coordinates (`ix2`, `ix1`), so every lemma rewrites a term
  at a literal position.
-/
import Idealize.ShloMosaic.PureOps.Ideal.Laws
import Idealize.ShloMosaic.Lib.ValueIdx
import Idealize.ShloMosaic.Lib.ValueLayout
import Idealize.ShloMosaic.Lib.Pipeline.Value

noncomputable section

open Idealize.ShloMosaic Idealize.ShloMosaic.ValueIdx

namespace Cert.MatRows

variable {α : Type}

/-- A product of an `M × K` by a `K × N` matrix into a zero accumulator, read at `(i, j)`: the sum over the
    contracted position `l` of `A (i, l) · B (l, j)`.  The four hypotheses say which coordinate of each operand
    index is the row, the column and the contracted position; at a literal record each holds by computation. -/
theorem matmul_zero_apply {M K N : Nat} {φ₁ φ₂ : FTy} (d : DotDims ⟨2, ![M, K]⟩ ⟨2, ![K, N]⟩ ⟨2, ![M, N]⟩)
    (hr : d.contr.rank = 1) (hs : d.contr.size ⟨0, by omega⟩ = K)
    (hl0 : ∀ j k, (d.lhsIdx j k 0).val = (j 0).val) (hl1 : ∀ j k, (d.lhsIdx j k 1).val = (k ⟨0, by omega⟩).val)
    (hr0 : ∀ j k, (d.rhsIdx j k 0).val = (k ⟨0, by omega⟩).val) (hr1 : ∀ j k, (d.rhsIdx j k 1).val = (j 1).val)
    (A : FVec Ideal ⟨2, ![M, K]⟩ φ₁) (B : FVec Ideal ⟨2, ![K, N]⟩ φ₂) (i : Fin M) (j : Fin N) :
    matmul d none A B (constant ⟨2, ![M, N]⟩ .f32 0x00000000#32) (ix2 i j) = ∑ l : Fin K, A (ix2 i l) * B (ix2 l j) := by
  show FloatOps.matmul d none A B (constant ⟨2, ![M, N]⟩ .f32 0x00000000#32) (ix2 i j) = _
  rw [Ideal.matmul_constant_zero_apply, ← Equiv.sum_comp (contrEquiv1 d K hr hs).symm]
  refine Finset.sum_congr rfl fun l _ => ?_
  have e1 : d.lhsIdx (ix2 i j) ((contrEquiv1 d K hr hs).symm l) = ix2 i l := by
    funext a; apply Fin.ext
    match a with
    | ⟨0, _⟩ => exact hl0 _ _
    | ⟨1, _⟩ => exact (hl1 _ _).trans (contrEquiv1_symm_val d K hr hs l)
  have e2 : d.rhsIdx (ix2 i j) ((contrEquiv1 d K hr hs).symm l) = ix2 l j := by
    funext a; apply Fin.ext
    match a with
    | ⟨0, _⟩ => exact (hr0 _ _).trans (contrEquiv1_symm_val d K hr hs l)
    | ⟨1, _⟩ => exact hr1 _ _
  rw [e1, e2]

/-- The sum of an `a × b` matrix along its rows, read at `i`: the sum of row `i`. -/
theorem laneSum_apply {a b : Nat} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin b, src (ix2 i k) := by
  rw [Ideal.multiReduction_add_single]
  show (∑ k : Fin b, src (h.lift (ix1 i) k)) = _
  refine Finset.sum_congr rfl fun k _ => congrArg src ?_
  funext d; apply Fin.ext
  match d with
  | ⟨0, _⟩ => rfl
  | ⟨1, _⟩ => rfl

/-- A vector of length `a` viewed as an `a × 1` matrix reads, at `(i, 0)`, the vector at `i`. -/
theorem colCast_apply {a : Nat} (v : (⟨1, ![a]⟩ : Shape).Idx → α) (h : (⟨1, ![a]⟩ : Shape).ShapeCasts ⟨2, ![a, 1]⟩)
    (i : Fin a) (z : Fin 1) : shapeCast ⟨2, ![a, 1]⟩ v h (ix2 i z) = v (ix1 i) := by
  refine shapeCast_apply v h (ix2 i z) (ix1 i) ?_
  rw [Shape.rowMajor_val_one, Shape.rowMajor_val_two]
  show i.val = i.val * 1 + z.val
  have := z.isLt; omega

/-- An `a × 1` matrix spread over `b` columns reads, at `(i, j)`, its one column at `i`. -/
theorem colBroadcast_apply {a b : Nat} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- Two `a × w` blocks set side by side into an `a × n` matrix, `n = w + w`: column `j < w` of the result is
    column `j` of the first block. -/
theorem sideBySide_left {a w n : Nat} (hn : n = w + w) (x y : (⟨2, ![a, w]⟩ : Shape).Idx → α)
    (h : Shape.Concatenates (([⟨⟨2, ![a, w]⟩, x⟩, ⟨⟨2, ![a, w]⟩, y⟩] : List ((s : Shape) × (s.Idx → α))).map (·.1)) ⟨2, ![a, n]⟩ 1)
    (i : Fin a) (j : Fin w) (j' : Fin n) (hj : j'.val = j.val) :
    concatenate ⟨2, ![a, n]⟩ 1 [⟨⟨2, ![a, w]⟩, x⟩, ⟨⟨2, ![a, w]⟩, y⟩] h (ix2 i j') = x (ix2 i j) := by
  subst hn
  exact concatenate_ofFn_apply (t := ⟨2, ![a, w + w]⟩) (s₁ := ⟨2, ![a, w]⟩) 1 (N := 2) (fun n => (![x, y] : Fin 2 → _) n) h rfl w rfl
    (ix2 i j') 0 (by show j'.val / w = 0; rw [hj]; exact Nat.div_eq_of_lt j.isLt) (ix2 i j)
    (by show j.val = j'.val % w; rw [hj, Nat.mod_eq_of_lt j.isLt])
    (fun b hb => by
      match b with
      | ⟨0, _⟩ => rfl
      | ⟨1, _⟩ => exact absurd rfl hb)

/-- … and column `w + j` of the result is column `j` of the second block. -/
theorem sideBySide_right {a w n : Nat} (hn : n = w + w) (x y : (⟨2, ![a, w]⟩ : Shape).Idx → α)
    (h : Shape.Concatenates (([⟨⟨2, ![a, w]⟩, x⟩, ⟨⟨2, ![a, w]⟩, y⟩] : List ((s : Shape) × (s.Idx → α))).map (·.1)) ⟨2, ![a, n]⟩ 1)
    (i : Fin a) (j : Fin w) (j' : Fin n) (hj : j'.val = w + j.val) :
    concatenate ⟨2, ![a, n]⟩ 1 [⟨⟨2, ![a, w]⟩, x⟩, ⟨⟨2, ![a, w]⟩, y⟩] h (ix2 i j') = y (ix2 i j) := by
  subst hn
  have hw : 0 < w := by have := j.isLt; omega
  exact concatenate_ofFn_apply (t := ⟨2, ![a, w + w]⟩) (s₁ := ⟨2, ![a, w]⟩) 1 (N := 2) (fun n => (![x, y] : Fin 2 → _) n) h rfl w rfl
    (ix2 i j') 1 (by show j'.val / w = 1; rw [hj, Nat.add_div_left _ hw, Nat.div_eq_of_lt j.isLt]) (ix2 i j)
    (by show j.val = j'.val % w; rw [hj, Nat.add_mod_left, Nat.mod_eq_of_lt j.isLt])
    (fun b hb => by
      match b with
      | ⟨0, _⟩ => rfl
      | ⟨1, _⟩ => exact absurd rfl hb)

end Cert.MatRows

end
-- ==== Proof.KernelPayload.lean ====
/-
  What the kernel's body adds to its output block at one grid point, read at an index.

  At grid point `(b, e)` the body holds a block `x0` of 256 token rows, the one-column block `x1` of their expert
  words, expert `e`'s two matrices `x2` and `x3` (each with a unit leading axis) and the block `acc` it has
  accumulated so far.  It stores   `acc + next · mask`   where `next = (up · (gate · σ(gate))) · x3` with
  `[gate | up] = x0 · x2` (two matrix products into zero accumulators; the changes of float format are the identity
  on the extended reals) and `mask` is the column of indicators "the row's word is `e`", spread over the columns.

  Read at row `p`, column `j`: `acc p j + mlp (row p of x0) x2 (column j of x3) · [x1 p = e]`.
-/
import proofs.«170278_j1460288880661_1_alg».proof.Proof.Gen.KernelIdeal.Skeleton
import proofs.«170278_j1460288880661_1_alg».proof.Proof.ExpertMath
import proofs.«170278_j1460288880661_1_alg».proof.Proof.LibMatRows
import proofs.«170278_j1460288880661_1_alg».proof.Proof.LibSliceRows
import Idealize.ShloMosaic.Lib.ValueLayout

noncomputable section

open Idealize.ShloMosaic Idealize.SL.Sem Idealize.ShloMosaic.ValueIdx

namespace Cert.KernelIdeal.Payload

open Cert.KernelIdeal Cert.KernelIdeal.Gen Cert.ExpertMath

/-- The token block times the expert's first matrix. -/
def gateUp (x0 : Vec Ideal S256x1024 .bf16) (x2 : Vec Ideal S1x1024x4096 .bf16) : FVec Ideal S256x4096 .f32 :=
  matmul dot_S256x1024_S1024x4096_S256x4096_1_0_0_1_n_n none
    (shapeCast S256x1024 x0 shapeCasts_S256x1024_S256x1024 : FVec Ideal S256x1024 .bf16)
    (shapeCast S1024x4096 x2 shapeCasts_S1x1024x4096_S1024x4096 : FVec Ideal S1024x4096 .bf16) (constant S256x4096 .f32 0x00000000#32)

/-- The activations `up · (gate · σ(gate))`. -/
def activ (x0 : Vec Ideal S256x1024 .bf16) (x2 : Vec Ideal S1x1024x4096 .bf16) : FVec Ideal S256x2048 .bf16 :=
  truncf .bf16 (mulf (extractStridedSlice S256x2048 ![0, 2048] (gateUp x0 x2) slices_S256x4096_o0_2048_S256x2048)
    (mulf (extractStridedSlice S256x2048 ![0, 0] (gateUp x0 x2) slices_S256x4096_o0_0_S256x2048)
      (logistic (extractStridedSlice S256x2048 ![0, 0] (gateUp x0 x2) slices_S256x4096_o0_0_S256x2048)))) bitsLt_bf16_f32

/-- The expert's layer of the 256 token rows. -/
def nextRows (x0 : Vec Ideal S256x1024 .bf16) (x2 : Vec Ideal S1x1024x4096 .bf16) (x3 : Vec Ideal S1x2048x1024 .bf16) :
    FVec Ideal S256x1024 .f32 :=
  matmul dot_S256x2048_S2048x1024_S256x1024_1_0_0_1_n_n none (activ x0 x2)
    (shapeCast S2048x1024 x3 shapeCasts_S1x2048x1024_S2048x1024 : FVec Ideal S2048x1024 .bf16) (constant S256x1024 .f32 0x00000000#32)

/-- The column of indicators "the row's word is the point's expert". -/
def maskCol (i : grid0.Coords) (x1 : Vec Ideal S256x1 .i32) : FVec Ideal S256x1 .f32 :=
  sitofp .f32 (extui 32 (cmpi .eq (shapeCast S256x1 x1 shapeCasts_S256x1_S256x1)
    (broadcast S256x1 (BitVec.ofNat 32 (i 1).val))) natLt_1_32)

/-- The body's stored value is the accumulated block plus the masked layer. -/
theorem pay_eq (i : grid0.Coords) (x0 : Vec Ideal S256x1024 .bf16) (x2 : Vec Ideal S1x1024x4096 .bf16)
    (x3 : Vec Ideal S1x2048x1024 .bf16) (x1 : Vec Ideal S256x1 .i32) (acc : Vec Ideal S256x1024 .f32) :
    k0_pay2 (F := Ideal) i x0 x2 x3 x1 acc
      = addf (shapeCast S256x1024 acc shapeCasts_S256x1024_S256x1024)
          (mulf (nextRows x0 x2 x3) (broadcastTo S256x1024 (maskCol i x1) broadcasts_S256x1_S256x1024)) := rfl

theorem gateUp_apply (x0 : Vec Ideal S256x1024 .bf16) (x2 : Vec Ideal S1x1024x4096 .bf16) (p : Fin 256) (l : Fin 4096) :
    gateUp x0 x2 (ix2 p l) = ∑ k : Fin 1024, x0 (ix2 p k) * x2 (ix3 (0 : Fin 1) k l) := by
  unfold gateUp
  rw [Cert.MatRows.matmul_zero_apply dot_S256x1024_S1024x4096_S256x4096_1_0_0_1_n_n rfl rfl
    (fun _ _ => rfl) (fun _ _ => rfl) (fun _ _ => rfl) (fun _ _ => rfl)]
  refine Finset.sum_congr rfl fun k _ => ?_
  rw [shapeCast_self, shapeCast_1ab_ab_apply]

theorem activ_apply (x0 : Vec Ideal S256x1024 .bf16) (x2 : Vec Ideal S1x1024x4096 .bf16) (p : Fin 256) (l : Fin 2048) :
    activ x0 x2 (ix2 p l)
      = (∑ k : Fin 1024, x0 (ix2 p k) * x2 (ix3 (0 : Fin 1) k (hi l))) *
          ((∑ k : Fin 1024, x0 (ix2 p k) * x2 (ix3 (0 : Fin 1) k (lo l))) *
            Ideal.logistic (∑ k : Fin 1024, x0 (ix2 p k) * x2 (ix3 (0 : Fin 1) k (lo l)))) := by
  unfold activ
  rw [truncf_apply, mulf_apply, mulf_apply,
    Cert.SliceRows.columns_apply 2048 _ _ p l (hi l) rfl,
    Cert.SliceRows.columns_apply 0 _ _ p l (lo l) (by show l.val = 0 + l.val; omega),
    gateUp_apply, gateUp_apply]
  show _ * (_ * Ideal.logistic (extractStridedSlice S256x2048 ![0, 0] (gateUp x0 x2) slices_S256x4096_o0_0_S256x2048 (ix2 p l))) = _
  rw [Cert.SliceRows.columns_apply 0 _ _ p l (lo l) (by show l.val = 0 + l.val; omega), gateUp_apply]

theorem nextRows_apply (x0 : Vec Ideal S256x1024 .bf16) (x2 : Vec Ideal S1x1024x4096 .bf16)
    (x3 : Vec Ideal S1x2048x1024 .bf16) (p : Fin 256) (j : Fin 1024) :
    nextRows x0 x2 x3 (ix2 p j)
      = mlp (fun k => x0 (ix2 p k)) (fun k l => x2 (ix3 (0 : Fin 1) k l)) (fun l => x3 (ix3 (0 : Fin 1) l j)) := by
  unfold nextRows mlp
  rw [Cert.MatRows.matmul_zero_apply dot_S256x2048_S2048x1024_S256x1024_1_0_0_1_n_n rfl rfl
    (fun _ _ => rfl) (fun _ _ => rfl) (fun _ _ => rfl) (fun _ _ => rfl)]
  refine Finset.sum_congr rfl fun l _ => ?_
  rw [activ_apply, shapeCast_1ab_ab_apply]

theorem maskCol_apply (i : grid0.Coords) (x1 : Vec Ideal S256x1 .i32) (p : Fin 256) :
    maskCol i x1 (ix2 p (0 : Fin 1)) = if x1 (ix2 p (0 : Fin 1)) = BitVec.ofNat 32 (i 1).val then (1 : EReal) else 0 := by
  unfold maskCol
  rw [sitofp_apply, extui_apply]
  show FloatOps.sitofp (F := Ideal) .f32 ((IntOp.cmpi .eq (shapeCast S256x1 x1 shapeCasts_S256x1_S256x1 (ix2 p (0 : Fin 1)))
    (BitVec.ofNat 32 (i 1).val)).setWidth 32) = _
  rw [shapeCast_self, sitofp_eq_test]

/-- The body's stored value at row `p`, column `j`. -/
theorem pay_apply (i : grid0.Coords) (x0 : Vec Ideal S256x1024 .bf16) (x2 : Vec Ideal S1x1024x4096 .bf16)
    (x3 : Vec Ideal S1x2048x1024 .bf16) (x1 : Vec Ideal S256x1 .i32) (acc : Vec Ideal S256x1024 .f32)
    (p : Fin 256) (j : Fin 1024) :
    k0_pay2 (F := Ideal) i x0 x2 x3 x1 acc (ix2 p j)
      = acc (ix2 p j) + mlp (fun k => x0 (ix2 p k)) (fun k l => x2 (ix3 (0 : Fin 1) k l)) (fun l => x3 (ix3 (0 : Fin 1) l j))
          * (if x1 (ix2 p (0 : Fin 1)) = BitVec.ofNat 32 (i 1).val then (1 : EReal) else 0) := by
  rw [pay_eq, addf_apply, mulf_apply, shapeCast_self, Cert.MatRows.colBroadcast_apply, nextRows_apply, maskCol_apply]

end Cert.KernelIdeal.Payload

end
-- ==== Proof.KernelBlocks.lean ====
/-
  The blocks the kernel's body reads, in terms of the argument arrays.

  Before the call the host changes the float format of the tokens and of the two weight arrays (the identity on the
  extended reals) and views the vector of expert words as a one-column matrix.  The 256 grid points are visited in
  row-major order of `(b, e)`, `b < 32`, `e < 8`: point `t` has `b = t / 8` and `e = t % 8`.  At point `t` the body
  reads rows `256·b … 256·b + 255` of the tokens and of the word column, and slab `e` of each weight array.
-/
import proofs.«170278_j1460288880661_1_alg».proof.Proof.Gen.KernelIdeal.Frame.Runs
import proofs.«170278_j1460288880661_1_alg».proof.Proof.LibMatRows
import Idealize.ShloMosaic.Lib.StableHlo.Run
import Idealize.ShloMosaic.Lib.ValueIdx

noncomputable section

open Idealize.ShloMosaic Idealize.ShloMosaic.TcCoe Idealize.SL.Sem Idealize.ShloMosaic.ValueIdx

namespace Cert.KernelIdeal.Blocks

open Cert.KernelIdeal Cert.KernelIdeal.Gen

variable (m : (ℓ : Loc nD τ sig) → Buf (Elt Ideal) ℓ)

/-- The token array the call is given is the argument (a change of float format). -/
theorem V_tokens (c : Dev nD) :
    (V m c main_v0 : S8192x1024.Idx → EReal) = m ((c : Thread nD τ).loc main_arg0) := by
  dsimp only [Gen.V, Gen.hostOps0]; after_results; rfl

/-- The first weight array the call is given is the argument (a change of float format). -/
theorem V_gateUp (c : Dev nD) :
    (V m c main_v1 : S8x1024x4096.Idx → EReal) = m ((c : Thread nD τ).loc main_arg2) := by
  dsimp only [Gen.V, Gen.hostOps0]; after_results; rfl

/-- The second weight array the call is given is the argument (a change of float format). -/
theorem V_down (c : Dev nD) :
    (V m c main_v2 : S8x2048x1024.Idx → EReal) = m ((c : Thread nD τ).loc main_arg3) := by
  dsimp only [Gen.V, Gen.hostOps0]; after_results; rfl

/-- The word column the call is given is the vector of words viewed as one column. -/
theorem V_words (c : Dev nD) :
    (V m c main_v3 : S8192x1.Idx → BitVec 32)
      = shapeCast S8192x1 (m ((c : Thread nD τ).loc main_arg1) : S8192.Idx → BitVec 32) shapeCasts_S8192_S8192x1 := by
  dsimp only [Gen.V, Gen.hostOps0]; after_results; rfl

/-- The printed index maps and the point's expert coordinate, decided over the 256 grid points. -/
theorem idx_facts : ∀ t : Fin cfg0.N,
    win0_0.index t (0 : Fin 2) = t.val / 8 ∧ win0_0.index t (1 : Fin 2) = 0
    ∧ win0_1.index t (0 : Fin 2) = t.val / 8 ∧ win0_1.index t (1 : Fin 2) = 0
    ∧ win0_2.index t (0 : Fin 3) = t.val % 8 ∧ win0_2.index t (1 : Fin 3) = 0 ∧ win0_2.index t (2 : Fin 3) = 0
    ∧ win0_3.index t (0 : Fin 3) = t.val % 8 ∧ win0_3.index t (1 : Fin 3) = 0 ∧ win0_3.index t (2 : Fin 3) = 0
    ∧ (grid0.coords t (1 : Fin 2)).val = t.val % 8 :=
  (by decide +kernel : ∀ t : Fin grid0.N, _)

/-- The token block at point `t`, row `p`: row `256·(t/8) + p` of the tokens. -/
theorem tokens_apply (c : Dev nD) (t : Fin cfg0.N) (p : Fin 256) (k : Fin 1024) (r : Fin 8192)
    (hr : r.val = 256 * (t.val / 8) + p.val) :
    iblk m c 0 t (ix2 p k) = m ((c : Thread nD τ).loc main_arg0) (ix2 r k) := by
  unfold iblk
  show V m c main_v0 (((cfg0.win 0).blk t).view.emb (ix2 p k)) = _
  rw [V_tokens]
  refine congrArg _ ?_
  obtain ⟨e0, e1, -⟩ := idx_facts t
  funext a; apply Fin.ext
  match a with
  | ⟨0, _⟩ => show win0_0.index t (0 : Fin 2) * 256 + 1 * p.val = r.val; omega
  | ⟨1, _⟩ => show win0_0.index t (1 : Fin 2) * 1024 + 1 * k.val = k.val; omega

/-- The word block at point `t`, row `p`: the word of token `256·(t/8) + p`. -/
theorem words_apply (c : Dev nD) (t : Fin cfg0.N) (p : Fin 256) (r : Fin 8192)
    (hr : r.val = 256 * (t.val / 8) + p.val) :
    iblk m c 1 t (ix2 p (0 : Fin 1)) = m ((c : Thread nD τ).loc main_arg1) (ix1 r) := by
  unfold iblk
  show V m c main_v3 (((cfg0.win 1).blk t).view.emb (ix2 p (0 : Fin 1))) = _
  rw [V_words]
  obtain ⟨-, -, e0, e1, -⟩ := idx_facts t
  have e : ((cfg0.win 1).blk t).view.emb (ix2 p (0 : Fin 1)) = ix2 r (0 : Fin 1) := by
    funext a; apply Fin.ext
    match a with
    | ⟨0, _⟩ => show win0_1.index t (0 : Fin 2) * 256 + 1 * p.val = r.val; omega
    | ⟨1, _⟩ => show win0_1.index t (1 : Fin 2) * 1 + 1 * 0 = 0; omega
  rw [e, Cert.MatRows.colCast_apply]

/-- The first weight block at point `t`: slab `t % 8`. -/
theorem gateUp_apply (c : Dev nD) (t : Fin cfg0.N) (k : Fin 1024) (l : Fin 4096) (e : Fin 8) (he : e.val = t.val % 8) :
    iblk m c 2 t (ix3 (0 : Fin 1) k l) = m ((c : Thread nD τ).loc main_arg2) (ix3 e k l) := by
  unfold iblk
  show V m c main_v1 (((cfg0.win 2).blk t).view.emb (ix3 (0 : Fin 1) k l)) = _
  rw [V_gateUp]
  refine congrArg _ ?_
  obtain ⟨-, -, -, -, e0, e1, e2, -⟩ := idx_facts t
  funext a; apply Fin.ext
  match a with
  | ⟨0, _⟩ => show win0_2.index t (0 : Fin 3) * 1 + 1 * 0 = e.val; omega
  | ⟨1, _⟩ => show win0_2.index t (1 : Fin 3) * 1024 + 1 * k.val = k.val; omega
  | ⟨2, _⟩ => show win0_2.index t (2 : Fin 3) * 4096 + 1 * l.val = l.val; omega

/-- The second weight block at point `t`: slab `t % 8`. -/
theorem down_apply (c : Dev nD) (t : Fin cfg0.N) (l : Fin 2048) (j : Fin 1024) (e : Fin 8) (he : e.val = t.val % 8) :
    iblk m c 3 t (ix3 (0 : Fin 1) l j) = m ((c : Thread nD τ).loc main_arg3) (ix3 e l j) := by
  unfold iblk
  show V m c main_v2 (((cfg0.win 3).blk t).view.emb (ix3 (0 : Fin 1) l j)) = _
  rw [V_down]
  refine congrArg _ ?_
  obtain ⟨-, -, -, -, -, -, -, e0, e1, e2, -⟩ := idx_facts t
  funext a; apply Fin.ext
  match a with
  | ⟨0, _⟩ => show win0_3.index t (0 : Fin 3) * 1 + 1 * 0 = e.val; omega
  | ⟨1, _⟩ => show win0_3.index t (1 : Fin 3) * 2048 + 1 * l.val = l.val; omega
  | ⟨2, _⟩ => show win0_3.index t (2 : Fin 3) * 1024 + 1 * j.val = j.val; omega

/-- The expert coordinate of point `t`. -/
theorem expert_coord (t : Fin cfg0.N) : (grid0.coords t (1 : Fin 2)).val = t.val % 8 := (idx_facts t).2.2.2.2.2.2.2.2.2.2

end Cert.KernelIdeal.Blocks

end
-- ==== Proof.KernelFold.lean ====
/-
  The kernel's result at an index: each token's own expert's layer.

  Output block `b` (rows `256·b … 256·b + 255`) is built over the run of eight grid points `8·b … 8·b + 7`: the first
  resets it to zero, and point `8·b + s` adds expert `s`'s layer of each of its rows times the indicator "the row's
  word is `s`".  So after the run, row `r`, column `j` holds   `0 + Σ_{s < 8} layer s r j · [word r = s]`,
  which is the token's own expert's layer: at most one indicator is 1, and a product with 0 is 0 and with 1 the
  other factor for every extended real.
-/
import proofs.«170278_j1460288880661_1_alg».proof.Proof.Gen.KernelIdeal.Value
import proofs.«170278_j1460288880661_1_alg».proof.Proof.KernelPayload
import proofs.«170278_j1460288880661_1_alg».proof.Proof.KernelBlocks
import proofs.«170278_j1460288880661_1_alg».proof.Proof.ExpertPick
import Idealize.ShloMosaic.PureOps.Ideal.Laws

noncomputable section

open Idealize.ShloMosaic Idealize.ShloMosaic.TcCoe Idealize.SL.Sem Idealize.ShloMosaic.ValueIdx

namespace Cert.KernelIdeal.Fold

open Cert.KernelIdeal Cert.KernelIdeal.Gen Cert.KernelIdeal.Value Cert.ExpertMath

variable (m : (ℓ : Loc nD τ sig) → Buf (Elt Ideal) ℓ)

/-- The row of the token array that row `p` of point `n`'s block is. -/
abbrev rowOf (n : ℕ) (p : Fin 256) : Fin 8192 := ⟨(256 * (n / 8) + p.val) % 8192, Nat.mod_lt _ (by decide)⟩

/-- What grid point `n` adds at row `p`, column `j` of its output block. -/
def addend (c : Dev nD) (n : ℕ) (p : Fin 256) (j : Fin 1024) : EReal :=
  layer (m ((c : Thread nD τ).loc main_arg0)) (m ((c : Thread nD τ).loc main_arg2)) (m ((c : Thread nD τ).loc main_arg3)) n (rowOf n p) j
    * ind (m ((c : Thread nD τ).loc main_arg1) (ix1 (rowOf n p))) (n % 8)

/-- One point's step, read at row `p`, column `j`: what was there plus the point's addend. -/
theorem step_apply (c : Dev nD) (n : ℕ) (h : n < cfg0.N) (acc : Vec Ideal S256x1024 .f32) (p : Fin 256) (j : Fin 1024) :
    step4 m c n h acc (ix2 p j) = acc (ix2 p j) + addend m c n p j := by
  have hN : n < 256 := lt_of_lt_of_eq h (show cfg0.N = 256 from N_0)
  have hp : p.val < 256 := p.isLt
  have hrow : (rowOf n p).val = 256 * ((⟨n, h⟩ : Fin cfg0.N).val / 8) + p.val := by
    show (256 * (n / 8) + p.val) % 8192 = 256 * (n / 8) + p.val
    omega
  unfold step4
  refine (Payload.pay_apply (grid0.coords ⟨n, h⟩) (iblk m c 0 ⟨n, h⟩) (iblk m c 2 ⟨n, h⟩) (iblk m c 3 ⟨n, h⟩)
    (iblk m c 1 ⟨n, h⟩) acc p j).trans ?_
  unfold addend layer ind
  have e0 : (fun k : Fin 1024 => iblk m c 0 ⟨n, h⟩ (ix2 p k))
      = fun k => m ((c : Thread nD τ).loc main_arg0) (ix2 (rowOf n p) k) :=
    funext fun k => Blocks.tokens_apply m c ⟨n, h⟩ p k (rowOf n p) hrow
  have e2 : (fun (k : Fin 1024) (l : Fin 4096) => iblk m c 2 ⟨n, h⟩ (ix3 (0 : Fin 1) k l))
      = fun k l => m ((c : Thread nD τ).loc main_arg2) (ix3 (⟨n % 8, Nat.mod_lt _ (by decide)⟩ : Fin 8) k l) :=
    funext fun k => funext fun l => Blocks.gateUp_apply m c ⟨n, h⟩ k l ⟨n % 8, Nat.mod_lt _ (by decide)⟩ rfl
  have e3 : (fun l : Fin 2048 => iblk m c 3 ⟨n, h⟩ (ix3 (0 : Fin 1) l j))
      = fun l => m ((c : Thread nD τ).loc main_arg3) (ix3 (⟨n % 8, Nat.mod_lt _ (by decide)⟩ : Fin 8) l j) :=
    funext fun l => Blocks.down_apply m c ⟨n, h⟩ l j ⟨n % 8, Nat.mod_lt _ (by decide)⟩ rfl
  have e1 : iblk m c 1 ⟨n, h⟩ (ix2 p (0 : Fin 1)) = m ((c : Thread nD τ).loc main_arg1) (ix1 (rowOf n p)) :=
    Blocks.words_apply m c ⟨n, h⟩ p (rowOf n p) hrow
  have e4 : (grid0.coords ⟨n, h⟩ (1 : Fin 2)).val = n % 8 := Blocks.expert_coord ⟨n, h⟩
  rw [e0, e2, e3, e1, e4]

/-- The run's fold after its eight points, read at row `p`, column `j`: the reset value plus the eight addends. -/
theorem fold_apply (c : Dev nD) (b : ℕ) (h : b + 7 < cfg0.N) (p : Fin 256) (j : Fin 1024) :
    Pipeline.accAt (reset4 m c) (step4 m c) b 7 h (ix2 p j)
      = k0_pay1 (F := Ideal) (ix2 p j) + ∑ s ∈ Finset.range (7 + 1), addend m c (b + s) p j :=
  Pipeline.accAt_add_apply (reset4 m c) (step4 m c) (k0_pay1 (F := Ideal)) (fun n y => addend m c n (y 0) (y 1)) b 7
    (fun hb y => by
      obtain ⟨p', j', rfl⟩ : ∃ (p' : Fin 256) (j' : Fin 1024), y = ix2 p' j' := ⟨y 0, y 1, eq_ix2 y⟩
      exact step_apply m c b hb (k0_pay1 (F := Ideal)) p' j')
    (fun n hn acc y _ _ => by
      obtain ⟨p', j', rfl⟩ : ∃ (p' : Fin 256) (j' : Fin 1024), y = ix2 p' j' := ⟨y 0, y 1, eq_ix2 y⟩
      exact step_apply m c n hn acc p' j')
    7 le_rfl h (ix2 p j)

/-- A point of the run of row `r`'s block adds expert `s`'s layer of token `r` against the indicator of `s`. -/
theorem addend_at (c : Dev nD) (r : Fin 8192) (j : Fin 1024) (b s : ℕ) (p : Fin 256) (hs : s < 8)
    (hb : b = 8 * (r.val / 256)) (hp : p.val = r.val % 256) :
    addend m c (b + s) p j
      = layer (m ((c : Thread nD τ).loc main_arg0)) (m ((c : Thread nD τ).loc main_arg2)) (m ((c : Thread nD τ).loc main_arg3)) s r j
        * ind (m ((c : Thread nD τ).loc main_arg1) (ix1 r)) s := by
  have hr : r.val < 8192 := r.isLt
  unfold addend
  have e1 : rowOf (b + s) p = r := Fin.ext (by show (256 * ((b + s) / 8) + p.val) % 8192 = r.val; omega)
  rw [e1, layer_congr _ _ _ (b + s) s (by omega), show (b + s) % 8 = s from by omega]

/-- The kernel's result at row `r`, column `j`. -/
theorem G4_apply (c : Dev nD) (r : Fin 8192) (j : Fin 1024) :
    G4 m c (ix2 r j)
      = pick (m ((c : Thread nD τ).loc main_arg0)) (m ((c : Thread nD τ).loc main_arg1))
          (m ((c : Thread nD τ).loc main_arg2)) (m ((c : Thread nD τ).loc main_arg3)) r j := by
  have hr : r.val < 8192 := r.isLt
  have hj : j.val < 1024 := j.isLt
  have hrun : run4Of (ix2 r j) = r.val / 256 := by
    show 1 * (r.val / 256 - 0) + 1 * (j.val / 1024 - 0) = _
    omega
  have hloc : loc4Of (ix2 r j) = ix2 (⟨r.val % 256, Nat.mod_lt _ (by decide)⟩ : Fin 256) j := by
    funext a; apply Fin.ext
    match a with
    | ⟨0, _⟩ => rfl
    | ⟨1, _⟩ => show j.val % 1024 = j.val; omega
  unfold G4
  rw [dif_pos (by rw [hrun, show cfg0.N = 256 from N_0]; omega), hloc, fold_apply]
  rw [Finset.sum_congr rfl fun s hs => addend_at m c r j (8 * run4Of (ix2 r j)) s ⟨r.val % 256, Nat.mod_lt _ (by decide)⟩
    (Finset.mem_range.mp hs) (by rw [hrun]) rfl]
  show Ideal.ofBits .f32 0x00000000#32 + _ = _
  rw [Ideal.ofBits_zero_f32]
  exact masked_sum_eq_overwrite _ _

end Cert.KernelIdeal.Fold

end
-- ==== Proof.lean ====
/-
  The certificate: a mixture-of-experts feed-forward layer, eight experts, each token sent to the expert its word names.

  The kernel walks a grid of 32 token blocks by 8 experts.  For one block of 256 tokens it clears the output block at
  expert 0 and, at expert `e`, adds   `((up · (gate · σ(gate))) · Wd[e]) · [word = e]`   with `[gate | up] = X · Wg[e]`:
  every expert's layer of every token, masked by the indicator of the token's word.  The reference computes every
  expert's layer of all tokens, expert after expert, and overwrites the rows whose word is the expert's number,
  starting from zeros; its `silu` is `g · (1 / (1 + exp(−g)))`, and `1 / (1 + exp(−g))` is `σ(g)` on every extended real.

  On the extended reals both results are, at token `r` and column `j`, the layer of the one expert the token's word
  names, and zero when it names none (`Cert.ExpertMath.pick`): the indicators are exactly 0 or 1, at most one of the
  eight is 1, a product with 0 is 0 and a product with 1 is the other factor whatever that factor is — so the sum of
  the masked layers is the overwritten value, with no condition on the layers being finite.  The matrix products are
  the same finite sums on both sides and the changes of float format are the identity.

  The kernel's result array is read through the value leg generated for its frame run (the fold of an output block
  over its run of eight grid points); the reference's run is the generated list of its host operations read back, and
  its result is read stage by stage.  `preserves` has no entry: the idealized kernel is the kernel's own text.
-/
import proofs.«170278_j1460288880661_1_alg».proof.Defs
import proofs.«170278_j1460288880661_1_alg».proof.Proof.Gen.Kernel.Frame
import proofs.«170278_j1460288880661_1_alg».proof.Proof.Gen.KernelIdeal.Value
import proofs.«170278_j1460288880661_1_alg».proof.Proof.Gen.Pre_finite_inputs
import proofs.«170278_j1460288880661_1_alg».proof.Proof.ReferenceRun
import proofs.«170278_j1460288880661_1_alg».proof.Proof.RefResult
import proofs.«170278_j1460288880661_1_alg».proof.Proof.KernelFold
import Idealize.ShloMosaic.Adequacy
import Idealize.ShloMosaic.Init

noncomputable section

namespace Cert.Proof

open Idealize.ShloMosaic Idealize.SL.Sem Idealize.ShloMosaic.ValueIdx

/-- The idealized kernel's frame: its value run with the result dropped. -/
theorem frame_KernelIdeal : frame_KernelIdeal := fun m ρ _ =>
  (θ_run Cert.KernelIdeal.defs _ _).mono (fun _ h c => (h c).2) (Cert.KernelIdeal.Value.run (F := Ideal) m ρ)

/-- The reference's frame: its run with the result dropped. -/
theorem frame_ReferenceIdeal : frame_ReferenceIdeal := fun m ρ _ =>
  (θ_run Cert.ReferenceIdeal.defs _ _).mono (fun _ h c => (h c).2) (Cert.ReferenceIdeal.ValueP.run (F := Ideal) m ρ)

/-- From memories agreeing on the four arguments, the reference's result array is the kernel's: at every token and
    column both are the token's own expert's layer. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    Cert.ReferenceIdeal.ValueP.res_main_v112 (F := Ideal) m' c = Cert.KernelIdeal.Value.G4 m c := by
  funext i
  obtain ⟨r, j, rfl⟩ : ∃ (r : Fin 8192) (j : Fin 1024), i = ix2 r j := ⟨i 0, i 1, eq_ix2 i⟩
  rw [Cert.ReferenceIdeal.RefValue.res_apply, Cert.KernelIdeal.Fold.G4_apply, h0, h1, h2, h3]

theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.ValueP.run (F := Ideal) m' ρ')
  rw [(h c).1]
  exact result_eq m m' c (hagree c).1 (hagree c).2.1 (hagree c).2.2.1 (hagree c).2.2.2

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
